-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v82)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v82) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v118) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg9 : FVec F S128x64 .f32) (main_arg10 : FVec F S64 .f32) (main_v33 : IVec S_ 1) : IVec S_ 1 :=
  let main_v34 : FVec F S128x64 .f32 := Host.absf main_arg9
  let main_cst_12 : FVec F S_ .f32 := constant S_ .f32 0x7F800000#32
  let main_v35 : FVec F S128x64 .f32 := broadcastInDim S128x64 ![] bcast_S_S128x64 main_cst_12
  let main_v36 : IVec S128x64 1 := cmpf .olt main_v34 main_v35
  let main_c_13 : IVec S_ 1 := constantI S_ 1 1#1
  let main_v37 : IVec S_ 1 := (fun x v => Host.reduce IntOp.andi x v reducesTo_S128x64_S_d0_1 h_S_) main_v36 main_c_13
  let main_v38 : IVec S_ 1 := andi main_v33 main_v37
  let main_v39 : FVec F S64 .f32 := Host.absf main_arg10
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  main_v43

def fn_part1 {F : FTy → Type} [FloatOps F] (main_arg6 : FVec F S128 .f32) (main_arg7 : FVec F S128x128 .f32) (main_arg8 : FVec F S128 .f32) (main_arg9 : FVec F S128x64 .f32) (main_arg10 : FVec F S64 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_v33

def fn {F : FTy → Type} [FloatOps F] (main_arg0 : FVec F S100000x128 .f32) (main_arg1 : IVec S2x1600000 32) (main_arg2 : IVec S100000 32) (main_arg3 : FVec F S128x128 .f32) (main_arg4 : FVec F S128 .f32) (main_arg5 : FVec F S128x128 .f32) (main_arg6 : FVec F S128 .f32) (main_arg7 : FVec F S128x128 .f32) (main_arg8 : FVec F S128 .f32) (main_arg9 : FVec F S128x64 .f32) (main_arg10 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_arg9 main_arg10 main_v13 main_v16
-- ==== Kernel.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S10000x128 : Shape := ⟨2, ![10000, 128]⟩
abbrev S1700000x128 : Shape := ⟨2, ![1700000, 128]⟩
abbrev S1x128 : Shape := ⟨2, ![1, 128]⟩
abbrev S512x128 : Shape := ⟨2, ![512, 128]⟩
abbrev S100000x1 : Shape := ⟨2, ![100000, 1]⟩
abbrev S512 : Shape := ⟨1, ![512]⟩
abbrev S512x1 : Shape := ⟨2, ![512, 1]⟩
abbrev S1x64 : Shape := ⟨2, ![1, 64]⟩
abbrev S512x64 : Shape := ⟨2, ![512, 64]⟩

abbrev nBuf : Space → Nat
  | .hbm => 116
  | .vmem => 18
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S100000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x64, .f32⟩
  | .hbm, ⟨10, _⟩ => ⟨S64, .f32⟩
  | .hbm, ⟨11, _⟩ => ⟨S100000, .i32⟩
  | .hbm, ⟨12, _⟩ => ⟨S1x1600000, .i32⟩
  | .hbm, ⟨13, _⟩ => ⟨S1600000, .i32⟩
  | .hbm, ⟨14, _⟩ => ⟨S1700000, .i32⟩
  | .hbm, ⟨15, _⟩ => ⟨S1x1600000, .i32⟩
  | .hbm, ⟨16, _⟩ => ⟨S1600000, .i32⟩
  | .hbm, ⟨17, _⟩ => ⟨S1700000, .i32⟩
  | .hbm, ⟨18, _⟩ => ⟨S_, .f32⟩
  | .hbm, ⟨19, _⟩ => ⟨S1700000, .f32⟩
  | .hbm, ⟨20, _⟩ => ⟨S_, .f32⟩
  | .hbm, ⟨21, _⟩ => ⟨S100000, .f32⟩
  | .hbm, ⟨22, _⟩ => ⟨S1700000x1, .i32⟩
  | .hbm, ⟨23, _⟩ => ⟨S100000, .f32⟩
  | .hbm, ⟨24, _⟩ => ⟨S_, .f32⟩
  | .hbm, ⟨25, _⟩ => ⟨S100000, .f32⟩
  | .hbm, ⟨26, _⟩ => ⟨S100000, .i1⟩
  | .hbm, ⟨27, _⟩ => ⟨S100000, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S_, .i32⟩
  | .hbm, ⟨32, _⟩ => ⟨S1700000, .i32⟩
  | .hbm, ⟨33, _⟩ => ⟨S1700000, .i1⟩
  | .hbm, ⟨34, _⟩ => ⟨S_, .i32⟩
  | .hbm, ⟨35, _⟩ => ⟨S1700000, .i32⟩
  | .hbm, ⟨36, _⟩ => ⟨S1700000, .i32⟩
  | .hbm, ⟨37, _⟩ => ⟨S1700000, .i32⟩
  | .hbm, ⟨38, _⟩ => ⟨S1700000x1, .i32⟩
  | .hbm, ⟨39, _⟩ => ⟨S1700000, .f32⟩
  | .hbm, ⟨40, _⟩ => ⟨S_, .i32⟩
  | .hbm, ⟨41, _⟩ => ⟨S1700000, .i32⟩
  | .hbm, ⟨42, _⟩ => ⟨S1700000, .i1⟩
  | .hbm, ⟨43, _⟩ => ⟨S_, .i32⟩
  | .hbm, ⟨44, _⟩ => ⟨S1700000, .i32⟩
  | .hbm, ⟨45, _⟩ => ⟨S1700000, .i32⟩
  | .hbm, ⟨46, _⟩ => ⟨S1700000, .i32⟩
  | .hbm, ⟨47, _⟩ => ⟨S1700000x1, .i32⟩
  | .hbm, ⟨48, _⟩ => ⟨S1700000, .f32⟩
  | .hbm, ⟨49, _⟩ => ⟨S1700000, .f32⟩
  | .hbm, ⟨50, _⟩ => ⟨S100000x128, .f32⟩
  | .hbm, ⟨51, _⟩ => ⟨S_, .i32⟩
  | .hbm, ⟨52, _⟩ => ⟨S1700000, .i32⟩
  | .hbm, ⟨53, _⟩ => ⟨S1700000, .i1⟩
  | .hbm, ⟨54, _⟩ => ⟨S_, .i32⟩
  | .hbm, ⟨55, _⟩ => ⟨S1700000, .i32⟩
  | .hbm, ⟨56, _⟩ => ⟨S1700000, .i32⟩
  | .hbm, ⟨57, _⟩ => ⟨S1700000, .i32⟩
  | .hbm, ⟨58, _⟩ => ⟨S1700000x1, .i32⟩
  | .hbm, ⟨59, _⟩ => ⟨S1700000x128, .f32⟩
  | .hbm, ⟨60, _⟩ => ⟨S1700000x1, .f32⟩
  | .hbm, ⟨61, _⟩ => ⟨S1700000x128, .f32⟩
  | .hbm, ⟨62, _⟩ => ⟨S1700000x128, .f32⟩
  | .hbm, ⟨63, _⟩ => ⟨S_, .f32⟩
  | .hbm, ⟨64, _⟩ => ⟨S100000x128, .f32⟩
  | .hbm, ⟨65, _⟩ => ⟨S1700000x1, .i32⟩
  | .hbm, ⟨66, _⟩ => ⟨S100000x128, .f32⟩
  | .hbm, ⟨67, _⟩ => ⟨S1x128, .f32⟩
  | .hbm, ⟨68, _⟩ => ⟨S100000x128, .f32⟩
  | .hbm, ⟨69, _⟩ => ⟨S100000x128, .f32⟩
  | .hbm, ⟨70, _⟩ => ⟨S_, .f32⟩
  | .hbm, ⟨71, _⟩ => ⟨S100000x128, .f32⟩
  | .hbm, ⟨72, _⟩ => ⟨S100000x128, .f32⟩
  | .hbm, ⟨73, _⟩ => ⟨S100000x128, .f32⟩
  | .hbm, ⟨74, _⟩ => ⟨S_, .i32⟩
  | .hbm, ⟨75, _⟩ => ⟨S1700000, .i32⟩
  | .hbm, ⟨76, _⟩ => ⟨S1700000, .i1⟩
  | .hbm, ⟨77, _⟩ => ⟨S_, .i32⟩
  | .hbm, ⟨78, _⟩ => ⟨S1700000, .i32⟩
  | .hbm, ⟨79, _⟩ => ⟨S1700000, .i32⟩
  | .hbm, ⟨80, _⟩ => ⟨S1700000, .i32⟩
  | .hbm, ⟨81, _⟩ => ⟨S1700000x1, .i32⟩
  | .hbm, ⟨82, _⟩ => ⟨S1700000x128, .f32⟩
  | .hbm, ⟨83, _⟩ => ⟨S1700000x1, .f32⟩
  | .hbm, ⟨84, _⟩ => ⟨S1700000x128, .f32⟩
  | .hbm, ⟨85, _⟩ => ⟨S1700000x128, .f32⟩
  | .hbm, ⟨86, _⟩ => ⟨S_, .f32⟩
  | .hbm, ⟨87, _⟩ => ⟨S100000x128, .f32⟩
  | .hbm, ⟨88, _⟩ => ⟨S1700000x1, .i32⟩
  | .hbm, ⟨89, _⟩ => ⟨S100000x128, .f32⟩
  | .hbm, ⟨90, _⟩ => ⟨S1x128, .f32⟩
  | .hbm, ⟨91, _⟩ => ⟨S100000x128, .f32⟩
  | .hbm, ⟨92, _⟩ => ⟨S100000x128, .f32⟩
  | .hbm, ⟨93, _⟩ => ⟨S_, .f32⟩
  | .hbm, ⟨94, _⟩ => ⟨S100000x128, .f32⟩
  | .hbm, ⟨95, _⟩ => ⟨S100000x128, .f32⟩
  | .hbm, ⟨96, _⟩ => ⟨S_, .f32⟩
  | .hbm, ⟨97, _⟩ => ⟨S512x128, .f32⟩
  | .hbm, ⟨98, _⟩ => ⟨S100000x1, .i32⟩
  | .hbm, ⟨99, _⟩ => ⟨S512x128, .f32⟩
  | .hbm, ⟨100, _⟩ => ⟨S_, .f32⟩
  | .hbm, ⟨101, _⟩ => ⟨S100000, .f32⟩
  | .hbm, ⟨102, _⟩ => ⟨S_, .f32⟩
  | .hbm, ⟨103, _⟩ => ⟨S512, .f32⟩
  | .hbm, ⟨104, _⟩ => ⟨S100000x1, .i32⟩
  | .hbm, ⟨105, _⟩ => ⟨S512, .f32⟩
  | .hbm, ⟨106, _⟩ => ⟨S_, .f32⟩
  | .hbm, ⟨107, _⟩ => ⟨S512, .f32⟩
  | .hbm, ⟨108, _⟩ => ⟨S512, .f32⟩
  | .hbm, ⟨109, _⟩ => ⟨S512x1, .f32⟩
  | .hbm, ⟨110, _⟩ => ⟨S512x128, .f32⟩
  | .hbm, ⟨111, _⟩ => ⟨S512x128, .f32⟩
  | .hbm, ⟨112, _⟩ => ⟨S1x128, .f32⟩
  | .hbm, ⟨113, _⟩ => ⟨S512x128, .f32⟩
  | .hbm, ⟨114, _⟩ => ⟨S1x64, .f32⟩
  | .hbm, ⟨115, _⟩ => ⟨S512x64, .f32⟩
  | .local _ .vmem, ⟨0, _⟩ => ⟨S10000x128, .f32⟩
  | .local _ .vmem, ⟨1, _⟩ => ⟨S10000x128, .f32⟩
  | .local _ .vmem, ⟨2, _⟩ => ⟨S128x128, .f32⟩
  | .local _ .vmem, ⟨3, _⟩ => ⟨S10000x128, .f32⟩
  | .local _ .vmem, ⟨4, _⟩ => ⟨S10000x128, .f32⟩
  | .local _ .vmem, ⟨5, _⟩ => ⟨S10000x128, .f32⟩
  | .local _ .vmem, ⟨6, _⟩ => ⟨S10000x128, .f32⟩
  | .local _ .vmem, ⟨7, _⟩ => ⟨S128x128, .f32⟩
  | .local _ .vmem, ⟨8, _⟩ => ⟨S10000x128, .f32⟩
  | .local _ .vmem, ⟨9, _⟩ => ⟨S10000x128, .f32⟩
  | .local _ .vmem, ⟨10, _⟩ => ⟨S512x128, .f32⟩
  | .local _ .vmem, ⟨11, _⟩ => ⟨S128x128, .f32⟩
  | .local _ .vmem, ⟨12, _⟩ => ⟨S1x128, .f32⟩
  | .local _ .vmem, ⟨13, _⟩ => ⟨S512x128, .f32⟩
  | .local _ .vmem, ⟨14, _⟩ => ⟨S512x128, .f32⟩
  | .local _ .vmem, ⟨15, _⟩ => ⟨S128x64, .f32⟩
  | .local _ .vmem, ⟨16, _⟩ => ⟨S1x64, .f32⟩
  | .local _ .vmem, ⟨17, _⟩ => ⟨S512x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_2 : Ref sig .tc := ⟨.hbm, 28, rfl⟩
abbrev main_v14 : Ref sig .tc := ⟨.hbm, 29, rfl⟩
abbrev main_v15 : Ref sig .tc := ⟨.hbm, 30, rfl⟩
abbrev main_c : Ref sig .tc := ⟨.hbm, 31, rfl⟩
abbrev main_v16 : Ref sig .tc := ⟨.hbm, 32, rfl⟩
abbrev main_v17 : Ref sig .tc := ⟨.hbm, 33, rfl⟩
abbrev main_c_3 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_c_4 : Ref sig .tc := ⟨.hbm, 40, rfl⟩
abbrev main_v23 : Ref sig .tc := ⟨.hbm, 41, rfl⟩
abbrev main_v24 : Ref sig .tc := ⟨.hbm, 42, rfl⟩
abbrev main_c_5 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_c_6 : Ref sig .tc := ⟨.hbm, 51, rfl⟩
abbrev main_v32 : Ref sig .tc := ⟨.hbm, 52, rfl⟩
abbrev main_v33 : Ref sig .tc := ⟨.hbm, 53, rfl⟩
abbrev main_c_7 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_cst_8 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_call1_cst : Ref sig .tc := ⟨.hbm, 70, rfl⟩
abbrev main_call1_v0 : Ref sig .tc := ⟨.hbm, 71, rfl⟩
abbrev main_v48 : Ref sig .tc := ⟨.hbm, 72, rfl⟩
abbrev main_v49 : Ref sig .tc := ⟨.hbm, 73, rfl⟩
abbrev main_c_9 : Ref sig .tc := ⟨.hbm, 74, rfl⟩
abbrev main_v50 : Ref sig .tc := ⟨.hbm, 75, rfl⟩
abbrev main_v51 : Ref sig .tc := ⟨.hbm, 76, rfl⟩
abbrev main_c_10 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_cst_11 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_call2_cst : Ref sig .tc := ⟨.hbm, 93, rfl⟩
abbrev main_call2_v0 : Ref sig .tc := ⟨.hbm, 94, rfl⟩
abbrev main_v66 : Ref sig .tc := ⟨.hbm, 95, rfl⟩
abbrev main_cst_12 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_cst_13 : Ref sig .tc := ⟨.hbm, 100, rfl⟩
abbrev main_v70 : Ref sig .tc := ⟨.hbm, 101, rfl⟩
abbrev main_cst_14 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_cst_15 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg1_0 : Ref sig .tc := ⟨.vmem, 11, rfl⟩
abbrev cc2_stg2_0 : Ref sig .tc := ⟨.vmem, 12, rfl⟩
abbrev cc2_stg3_0 : Ref sig .tc := ⟨.vmem, 13, rfl⟩
abbrev cc3_stg0_0 : Ref sig .tc := ⟨.vmem, 14, rfl⟩
abbrev cc3_stg1_0 : Ref sig .tc := ⟨.vmem, 15, rfl⟩
abbrev cc3_stg2_0 : Ref sig .tc := ⟨.vmem, 16, rfl⟩
abbrev cc3_stg3_0 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem1_0 : DmaSem sig := 11
abbrev cc2_sem2_0 : DmaSem sig := 12
abbrev cc2_sem3_0 : DmaSem sig := 13
abbrev cc3_sem0_0 : DmaSem sig := 14
abbrev cc3_sem1_0 : DmaSem sig := 15
abbrev cc3_sem2_0 : DmaSem sig := 16
abbrev cc3_sem3_0 : DmaSem sig := 17

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![1], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 1 → Memref sig .tc .vmem S512x128 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S512x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev grid3 : Pipeline.Grid := ⟨1, ![1], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 1 → Memref sig .tc .vmem S512x128 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false]

abbrev stage3_1 : Fin 1 → Memref sig .tc .vmem S128x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S512x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  shapeCasts_S10000x128_S10000x128 : S10000x128.ShapeCasts S10000x128
  bcast_S_S512x128 : S_.BroadcastsInDim S512x128 (![] : Fin 0 → Fin S512x128.rank)
  bcast_S100000_S100000x1_0 : S100000.BroadcastsInDim S100000x1 (![0] : Fin 1 → Fin S100000x1.rank)
  bcast_S_S512 : S_.BroadcastsInDim S512 (![] : Fin 0 → Fin S512.rank)
  bcast_S512_S512x1_0 : S512.BroadcastsInDim S512x1 (![0] : Fin 1 → Fin S512x1.rank)
  bcast_S512x1_S512x128_0_1 : S512x1.BroadcastsInDim S512x128 (![0, 1] : Fin 2 → Fin S512x128.rank)
  shapeCasts_S128_S1x128 : S128.ShapeCasts S1x128
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S512x128 : S1x128.Broadcasts S512x128
  shapeCasts_S64_S1x64 : S64.ShapeCasts S1x64
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S512x64 : S1x64.Broadcasts S512x64
  inb_S512x64_S512x64_0_0 : ∀ a, (![0, 0] : Fin 2 → Nat) a + S512x64.size a ≤ S512x64.size a
  h_S512x64 : 0 < S512x64.numel
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S10000x128_S128x128_S10000x128_1_0_0_1_n_n_wf : DotDims.WF S10000x128 S128x128 S10000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  scatter_S512x128_S100000x1_S100000x128_1_0_0_1_wf : ScatterDims.WF S512x128 S100000x1 S100000x128 [1] [0] [0] 1
  scatter_S512_S100000x1_S100000_n_0_0_1_wf : ScatterDims.WF S512 S100000x1 S100000 [] [0] [0] 1
  dot_S512x128_S128x128_S512x128_1_0_0_1_n_n_wf : DotDims.WF S512x128 S128x128 S512x128 [1] [0] [0] [1] [] []
  dot_S512x128_S128x64_S512x64_1_0_0_1_n_n_wf : DotDims.WF S512x128 S128x64 S512x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S100000x128.size a
  hwx0_2 : ∀ i : grid0.Coords, EltTy.bits .f32 = 32 ∨ (Rect.block (s := S100000x128) S10000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x128.size a ≤ S100000x128.size a
  hwx1_2 : ∀ i : grid1.Coords, EltTy.bits .f32 = 32 ∨ (Rect.block (s := S100000x128) S10000x128.size (cc1_transform_2 i) (hinb1_2 i)).WholeWords (EltTy.packing .f32)
  hrank2 : 0 < grid2.rank
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S512x128.size a ≤ S512x128.size a
  hwx2_0 : ∀ i : grid2.Coords, EltTy.bits .f32 = 32 ∨ (Rect.block (s := S512x128) S512x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S512x128.size a ≤ S512x128.size a
  hwx2_3 : ∀ i : grid2.Coords, EltTy.bits .f32 = 32 ∨ (Rect.block (s := S512x128) S512x128.size (cc2_transform_3 i) (hinb2_3 i)).WholeWords (EltTy.packing .f32)
  hrank3 : 0 < grid3.rank
  hstage3_0 : ∀ j, (stage3_0 j).IsWhole
  nbuf3_0 : grid3.bufCount reads3_0 true = 1
  hreads3_0 : ∀ i i' : grid3.Coords, (∀ a, reads3_0 a = true → i a = i' a) → cc3_transform_0 i = cc3_transform_0 i'
  hinb3_0 : ∀ (i : grid3.Coords) a, (cc3_transform_0 i a + 1) * S512x128.size a ≤ S512x128.size a
  hwx3_0 : ∀ i : grid3.Coords, EltTy.bits .f32 = 32 ∨ (Rect.block (s := S512x128) S512x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x64.size a ≤ S128x64.size a
  hwx3_1 : ∀ i : grid3.Coords, EltTy.bits .f32 = 32 ∨ (Rect.block (s := S128x64) S128x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S512x64.size a ≤ S512x64.size a
  hwx3_3 : ∀ i : grid3.Coords, EltTy.bits .f32 = 32 ∨ (Rect.block (s := S512x64) S512x64.size (cc3_transform_3 i) (hinb3_3 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def scatter_S512x128_S100000x1_S100000x128_1_0_0_1 : ScatterDims S512x128 S100000x1 S100000x128 where
  updateWindowDims := [1]
  insertedWindowDims := [0]
  scatterDimsToOperandDims := [0]
  indexVectorDim := 1
  wf := scatter_S512x128_S100000x1_S100000x128_1_0_0_1_wf
def scatter_S512_S100000x1_S100000_n_0_0_1 : ScatterDims S512 S100000x1 S100000 where
  updateWindowDims := []
  insertedWindowDims := [0]
  scatterDimsToOperandDims := [0]
  indexVectorDim := 1
  wf := scatter_S512_S100000x1_S100000_n_0_0_1_wf
def dot_S512x128_S128x128_S512x128_1_0_0_1_n_n : DotDims S512x128 S128x128 S512x128 where
  lhsContracting := [1]
  rhsContracting := [0]
  lhsNonContracting := [0]
  rhsNonContracting := [1]
  lhsBatch := []
  rhsBatch := []
  wf := dot_S512x128_S128x128_S512x128_1_0_0_1_n_n_wf
def dot_S512x128_S128x64_S512x64_1_0_0_1_n_n : DotDims S512x128 S128x64 S512x64 where
  lhsContracting := [1]
  rhsContracting := [0]
  lhsNonContracting := [0]
  rhsNonContracting := [1]
  lhsBatch := []
  rhsBatch := []
  wf := dot_S512x128_S128x64_S512x64_1_0_0_1_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v31) S10000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v48) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v49) S10000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v78) S512x128.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_arg7) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v79) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v80) S512x128.size cc2_transform_3 reads2_3 true true 1 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v80) S512x128.size cc3_transform_0 reads3_0 false true 1 stage3_0 sem3_0
    hrank3 hreads3_0 hinb3_0 nbuf3_0 (Memref.isWhole_whole _) hwx3_0 hstage3_0

abbrev win3_1 : Pipeline.Window sig grid3 :=
  Pipeline.Window.ofSpec (Memref.whole main_arg9) S128x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v81) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v82) S512x64.size cc3_transform_3 reads3_3 true true 1 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S512x128 : Shape := ⟨2, ![512, 128]⟩
abbrev S100000x1 : Shape := ⟨2, ![100000, 1]⟩
abbrev S512 : Shape := ⟨1, ![512]⟩
abbrev S512x1 : Shape := ⟨2, ![512, 1]⟩
abbrev S512x64 : Shape := ⟨2, ![512, 64]⟩
abbrev S1x64 : Shape := ⟨2, ![1, 64]⟩

abbrev nBuf : Space → Nat
  | .hbm => 162
  | .vmem => 0
  | .smem => 0
  | _ => 0

abbrev hbmTy0_0 (i : Nat) : BufTy := match i % 128 with
  | 0 => ⟨S100000x128, .f32⟩
  | 1 => ⟨S2x1600000, .i32⟩
  | 2 => ⟨S100000, .i32⟩
  | 3 => ⟨S128x128, .f32⟩
  | 4 => ⟨S128, .f32⟩
  | 5 => ⟨S128x128, .f32⟩
  | 6 => ⟨S128, .f32⟩
  | 7 => ⟨S128x128, .f32⟩
  | 8 => ⟨S128, .f32⟩
  | 9 => ⟨S128x64, .f32⟩
  | 10 => ⟨S64, .f32⟩
  | 11 => ⟨S100000, .i32⟩
  | 12 => ⟨S1x1600000, .i32⟩
  | 13 => ⟨S1600000, .i32⟩
  | 14 => ⟨S1700000, .i32⟩
  | 15 => ⟨S1x1600000, .i32⟩
  | 16 => ⟨S1600000, .i32⟩
  | 17 => ⟨S1700000, .i32⟩
  | 18 => ⟨S_, .f32⟩
  | 19 => ⟨S1700000, .f32⟩
  | 20 => ⟨S_, .f32⟩
  | 21 => ⟨S100000, .f32⟩
  | 22 => ⟨S1700000x1, .i32⟩
  | 23 => ⟨S100000, .f32⟩
  | 24 => ⟨S_, .f32⟩
  | 25 => ⟨S100000, .f32⟩
  | 26 => ⟨S100000, .i1⟩
  | 27 => ⟨S100000, .f32⟩
  | 28 => ⟨S_, .f32⟩
  | 29 => ⟨S100000, .f32⟩
  | 30 => ⟨S100000, .f32⟩
  | 31 => ⟨S_, .i32⟩
  | 32 => ⟨S1700000, .i32⟩
  | 33 => ⟨S1700000, .i1⟩
  | 34 => ⟨S_, .i32⟩
  | 35 => ⟨S1700000, .i32⟩
  | 36 => ⟨S1700000, .i32⟩
  | 37 => ⟨S1700000, .i32⟩
  | 38 => ⟨S1700000x1, .i32⟩
  | 39 => ⟨S1700000, .f32⟩
  | 40 => ⟨S_, .i32⟩
  | 41 => ⟨S1700000, .i32⟩
  | 42 => ⟨S1700000, .i1⟩
  | 43 => ⟨S_, .i32⟩
  | 44 => ⟨S1700000, .i32⟩
  | 45 => ⟨S1700000, .i32⟩
  | 46 => ⟨S1700000, .i32⟩
  | 47 => ⟨S1700000x1, .i32⟩
  | 48 => ⟨S1700000, .f32⟩
  | 49 => ⟨S1700000, .f32⟩
  | 50 => ⟨S100000x128, .f32⟩
  | 51 => ⟨S_, .i32⟩
  | 52 => ⟨S1700000, .i32⟩
  | 53 => ⟨S1700000, .i1⟩
  | 54 => ⟨S_, .i32⟩
  | 55 => ⟨S1700000, .i32⟩
  | 56 => ⟨S1700000, .i32⟩
  | 57 => ⟨S1700000, .i32⟩
  | 58 => ⟨S1700000x1, .i32⟩
  | 59 => ⟨S1700000x128, .f32⟩
  | 60 => ⟨S1700000x1, .f32⟩
  | 61 => ⟨S1700000x128, .f32⟩
  | 62 => ⟨S1700000x128, .f32⟩
  | 63 => ⟨S_, .f32⟩
  | 64 => ⟨S100000x128, .f32⟩
  | 65 => ⟨S1700000x1, .i32⟩
  | 66 => ⟨S100000x128, .f32⟩
  | 67 => ⟨S1x128, .f32⟩
  | 68 => ⟨S100000x128, .f32⟩
  | 69 => ⟨S100000x128, .f32⟩
  | 70 => ⟨S_, .f32⟩
  | 71 => ⟨S100000x128, .f32⟩
  | 72 => ⟨S100000x128, .f32⟩
  | 73 => ⟨S100000, .i32⟩
  | 74 => ⟨S1x1600000, .i32⟩
  | 75 => ⟨S1600000, .i32⟩
  | 76 => ⟨S1700000, .i32⟩
  | 77 => ⟨S1x1600000, .i32⟩
  | 78 => ⟨S1600000, .i32⟩
  | 79 => ⟨S1700000, .i32⟩
  | 80 => ⟨S_, .f32⟩
  | 81 => ⟨S1700000, .f32⟩
  | 82 => ⟨S_, .f32⟩
  | 83 => ⟨S100000, .f32⟩
  | 84 => ⟨S1700000x1, .i32⟩
  | 85 => ⟨S100000, .f32⟩
  | 86 => ⟨S_, .f32⟩
  | 87 => ⟨S100000, .f32⟩
  | 88 => ⟨S100000, .i1⟩
  | 89 => ⟨S100000, .f32⟩
  | 90 => ⟨S_, .f32⟩
  | 91 => ⟨S100000, .f32⟩
  | 92 => ⟨S100000, .f32⟩
  | 93 => ⟨S_, .i32⟩
  | 94 => ⟨S1700000, .i32⟩
  | 95 => ⟨S1700000, .i1⟩
  | 96 => ⟨S_, .i32⟩
  | 97 => ⟨S1700000, .i32⟩
  | 98 => ⟨S1700000, .i32⟩
  | 99 => ⟨S1700000, .i32⟩
  | 100 => ⟨S1700000x1, .i32⟩
  | 101 => ⟨S1700000, .f32⟩
  | 102 => ⟨S_, .i32⟩
  | 103 => ⟨S1700000, .i32⟩
  | 104 => ⟨S1700000, .i1⟩
  | 105 => ⟨S_, .i32⟩
  | 106 => ⟨S1700000, .i32⟩
  | 107 => ⟨S1700000, .i32⟩
  | 108 => ⟨S1700000, .i32⟩
  | 109 => ⟨S1700000x1, .i32⟩
  | 110 => ⟨S1700000, .f32⟩
  | 111 => ⟨S1700000, .f32⟩
  | 112 => ⟨S100000x128, .f32⟩
  | 113 => ⟨S_, .i32⟩
  | 114 => ⟨S1700000, .i32⟩
  | 115 => ⟨S1700000, .i1⟩
  | 116 => ⟨S_, .i32⟩
  | 117 => ⟨S1700000, .i32⟩
  | 118 => ⟨S1700000, .i32⟩
  | 119 => ⟨S1700000, .i32⟩
  | 120 => ⟨S1700000x1, .i32⟩
  | 121 => ⟨S1700000x128, .f32⟩
  | 122 => ⟨S1700000x1, .f32⟩
  | 123 => ⟨S1700000x128, .f32⟩
  | 124 => ⟨S1700000x128, .f32⟩
  | 125 => ⟨S_, .f32⟩
  | 126 => ⟨S100000x128, .f32⟩
  | 127 => ⟨S1700000x1, .i32⟩
  | _ => ⟨S100000x128, .f32⟩

abbrev hbmTy0_1 (i : Nat) : BufTy := match i % 128 with
  | 0 => ⟨S100000x128, .f32⟩
  | 1 => ⟨S1x128, .f32⟩
  | 2 => ⟨S100000x128, .f32⟩
  | 3 => ⟨S100000x128, .f32⟩
  | 4 => ⟨S_, .f32⟩
  | 5 => ⟨S100000x128, .f32⟩
  | 6 => ⟨S100000x128, .f32⟩
  | 7 => ⟨S_, .f32⟩
  | 8 => ⟨S512x128, .f32⟩
  | 9 => ⟨S100000x1, .i32⟩
  | 10 => ⟨S512x128, .f32⟩
  | 11 => ⟨S_, .f32⟩
  | 12 => ⟨S100000, .f32⟩
  | 13 => ⟨S_, .f32⟩
  | 14 => ⟨S512, .f32⟩
  | 15 => ⟨S100000x1, .i32⟩
  | 16 => ⟨S512, .f32⟩
  | 17 => ⟨S_, .f32⟩
  | 18 => ⟨S512, .f32⟩
  | 19 => ⟨S512, .f32⟩
  | 20 => ⟨S512x1, .f32⟩
  | 21 => ⟨S512x128, .f32⟩
  | 22 => ⟨S512x128, .f32⟩
  | 23 => ⟨S512x128, .f32⟩
  | 24 => ⟨S1x128, .f32⟩
  | 25 => ⟨S512x128, .f32⟩
  | 26 => ⟨S512x128, .f32⟩
  | 27 => ⟨S_, .f32⟩
  | 28 => ⟨S512x128, .f32⟩
  | 29 => ⟨S512x128, .f32⟩
  | 30 => ⟨S512x64, .f32⟩
  | 31 => ⟨S1x64, .f32⟩
  | 32 => ⟨S512x64, .f32⟩
  | 33 => ⟨S512x64, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_2 : Ref sig .tc := ⟨.hbm, 28, rfl⟩
abbrev main_v14 : Ref sig .tc := ⟨.hbm, 29, rfl⟩
abbrev main_v15 : Ref sig .tc := ⟨.hbm, 30, rfl⟩
abbrev main_c : Ref sig .tc := ⟨.hbm, 31, rfl⟩
abbrev main_v16 : Ref sig .tc := ⟨.hbm, 32, rfl⟩
abbrev main_v17 : Ref sig .tc := ⟨.hbm, 33, rfl⟩
abbrev main_c_3 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_c_4 : Ref sig .tc := ⟨.hbm, 40, rfl⟩
abbrev main_v23 : Ref sig .tc := ⟨.hbm, 41, rfl⟩
abbrev main_v24 : Ref sig .tc := ⟨.hbm, 42, rfl⟩
abbrev main_c_5 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_c_6 : Ref sig .tc := ⟨.hbm, 51, rfl⟩
abbrev main_v32 : Ref sig .tc := ⟨.hbm, 52, rfl⟩
abbrev main_v33 : Ref sig .tc := ⟨.hbm, 53, rfl⟩
abbrev main_c_7 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_cst_8 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_call1_cst : Ref sig .tc := ⟨.hbm, 70, rfl⟩
abbrev main_call1_v0 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_cst_9 : Ref sig .tc := ⟨.hbm, 80, rfl⟩
abbrev main_v56 : Ref sig .tc := ⟨.hbm, 81, rfl⟩
abbrev main_cst_10 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_cst_11 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_cst_12 : Ref sig .tc := ⟨.hbm, 90, rfl⟩
abbrev main_v63 : Ref sig .tc := ⟨.hbm, 91, rfl⟩
abbrev main_v64 : Ref sig .tc := ⟨.hbm, 92, rfl⟩
abbrev main_c_13 : Ref sig .tc := ⟨.hbm, 93, rfl⟩
abbrev main_v65 : Ref sig .tc := ⟨.hbm, 94, rfl⟩
abbrev main_v66 : Ref sig .tc := ⟨.hbm, 95, rfl⟩
abbrev main_c_14 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_c_15 : Ref sig .tc := ⟨.hbm, 102, rfl⟩
abbrev main_v72 : Ref sig .tc := ⟨.hbm, 103, rfl⟩
abbrev main_v73 : Ref sig .tc := ⟨.hbm, 104, rfl⟩
abbrev main_c_16 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_c_17 : Ref sig .tc := ⟨.hbm, 113, rfl⟩
abbrev main_v81 : Ref sig .tc := ⟨.hbm, 114, rfl⟩
abbrev main_v82 : Ref sig .tc := ⟨.hbm, 115, rfl⟩
abbrev main_c_18 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_cst_19 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_call3_cst : Ref sig .tc := ⟨.hbm, 132, rfl⟩
abbrev main_call3_v0 : Ref sig .tc := ⟨.hbm, 133, rfl⟩
abbrev main_v97 : Ref sig .tc := ⟨.hbm, 134, rfl⟩
abbrev main_cst_20 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_cst_21 : Ref sig .tc := ⟨.hbm, 139, rfl⟩
abbrev main_v101 : Ref sig .tc := ⟨.hbm, 140, rfl⟩
abbrev main_cst_22 : Ref sig .tc := ⟨.hbm, 141, rfl⟩
abbrev main_v102 : Ref sig .tc := ⟨.hbm, 142, rfl⟩
abbrev main_v103 : Ref sig .tc := ⟨.hbm, 143, rfl⟩
abbrev main_v104 : Ref sig .tc := ⟨.hbm, 144, rfl⟩
abbrev main_cst_23 : Ref sig .tc := ⟨.hbm, 145, rfl⟩
abbrev main_v105 : Ref sig .tc := ⟨.hbm, 146, rfl⟩
abbrev main_v106 : Ref sig .tc := ⟨.hbm, 147, rfl⟩
abbrev main_v107 : Ref sig .tc := ⟨.hbm, 148, rfl⟩
abbrev main_v108 : Ref sig .tc := ⟨.hbm, 149, rfl⟩
abbrev main_v109 : Ref sig .tc := ⟨.hbm, 150, rfl⟩
abbrev main_v110 : Ref sig .tc := ⟨.hbm, 151, rfl⟩
abbrev main_v111 : Ref sig .tc := ⟨.hbm, 152, rfl⟩
abbrev main_v112 : Ref sig .tc := ⟨.hbm, 153, rfl⟩
abbrev main_v113 : Ref sig .tc := ⟨.hbm, 154, rfl⟩
abbrev main_call4_cst : Ref sig .tc := ⟨.hbm, 155, rfl⟩
abbrev main_call4_v0 : Ref sig .tc := ⟨.hbm, 156, rfl⟩
abbrev main_v114 : Ref sig .tc := ⟨.hbm, 157, rfl⟩
abbrev main_v115 : Ref sig .tc := ⟨.hbm, 158, rfl⟩
abbrev main_v116 : Ref sig .tc := ⟨.hbm, 159, rfl⟩
abbrev main_v117 : Ref sig .tc := ⟨.hbm, 160, rfl⟩
abbrev main_v118 : Ref sig .tc := ⟨.hbm, 161, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S512x128 : S_.BroadcastsInDim S512x128 (![] : Fin 0 → Fin S512x128.rank)
  bcast_S100000_S100000x1_0 : S100000.BroadcastsInDim S100000x1 (![0] : Fin 1 → Fin S100000x1.rank)
  bcast_S_S512 : S_.BroadcastsInDim S512 (![] : Fin 0 → Fin S512.rank)
  bcast_S512_S512x1_0 : S512.BroadcastsInDim S512x1 (![0] : Fin 1 → Fin S512x1.rank)
  bcast_S512x1_S512x128_0_1 : S512x1.BroadcastsInDim S512x128 (![0, 1] : Fin 2 → Fin S512x128.rank)
  bcast_S1x128_S512x128_0_1 : S1x128.BroadcastsInDim S512x128 (![0, 1] : Fin 2 → Fin S512x128.rank)
  bcast_S64_S1x64_1 : S64.BroadcastsInDim S1x64 (![1] : Fin 1 → Fin S1x64.rank)
  bcast_S1x64_S512x64_0_1 : S1x64.BroadcastsInDim S512x64 (![0, 1] : Fin 2 → Fin S512x64.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x128_S100000x128_1_0_0_1_n_n_wf : DotDims.WF S100000x128 S128x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  scatter_S512x128_S100000x1_S100000x128_1_0_0_1_wf : ScatterDims.WF S512x128 S100000x1 S100000x128 [1] [0] [0] 1
  scatter_S512_S100000x1_S100000_n_0_0_1_wf : ScatterDims.WF S512 S100000x1 S100000 [] [0] [0] 1
  dot_S512x128_S128x128_S512x128_1_0_0_1_n_n_wf : DotDims.WF S512x128 S128x128 S512x128 [1] [0] [0] [1] [] []
  dot_S512x128_S128x64_S512x64_1_0_0_1_n_n_wf : DotDims.WF S512x128 S128x64 S512x64 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def scatter_S512x128_S100000x1_S100000x128_1_0_0_1 : ScatterDims S512x128 S100000x1 S100000x128 where
  updateWindowDims := [1]
  insertedWindowDims := [0]
  scatterDimsToOperandDims := [0]
  indexVectorDim := 1
  wf := scatter_S512x128_S100000x1_S100000x128_1_0_0_1_wf
def scatter_S512_S100000x1_S100000_n_0_0_1 : ScatterDims S512 S100000x1 S100000 where
  updateWindowDims := []
  insertedWindowDims := [0]
  scatterDimsToOperandDims := [0]
  indexVectorDim := 1
  wf := scatter_S512_S100000x1_S100000_n_0_0_1_wf
def dot_S512x128_S128x128_S512x128_1_0_0_1_n_n : DotDims S512x128 S128x128 S512x128 where
  lhsContracting := [1]
  rhsContracting := [0]
  lhsNonContracting := [0]
  rhsNonContracting := [1]
  lhsBatch := []
  rhsBatch := []
  wf := dot_S512x128_S128x128_S512x128_1_0_0_1_n_n_wf
def dot_S512x128_S128x64_S512x64_1_0_0_1_n_n : DotDims S512x128 S128x64 S512x64 where
  lhsContracting := [1]
  rhsContracting := [0]
  lhsNonContracting := [0]
  rhsNonContracting := [1]
  lhsBatch := []
  rhsBatch := []
  wf := dot_S512x128_S128x64_S512x64_1_0_0_1_n_n_wf

class Facts : Prop extends Facts₀ where

variable [Facts]
-- ==== Proof.KernelRun.lean ====
/-
  The idealized kernel's run with its result buffer named.

  The program is four pipelined regions among stretches of host operations.  Every weakly fair execution
  terminates, and in the final state every unscoped buffer of a core holds the contents at the last segment
  boundary: the fold of the host stretches and of the regions' write-backs over the launch memory.  Read at the
  result buffer this names the program's value; read at an argument it is the launch contents.
-/
import proofs.«156952_j62904091017570_1_alg».proof.Proof.Gen.KernelIdeal.Frame

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the kernel program terminates without a fault; the result buffer ends at
    the last boundary's contents and the arguments end as launched. -/
theorem run_named : θ_run defs (onTc (τ := τ) (main (F := F))) ⟨m, fun _ => 0, ρ⟩ (fun r => ∀ c : Dev nD,
      r.2.mem ((c.tc : Thread nD τ).loc main_v82) = W13 m ρ c (Proc.devRef .tc main_v82)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h c =>
      ⟨h c _ (mem_uc main_v82 (by decide)),
       (h c _ (mem_uc main_arg0 (by decide))).trans (W13_main_arg0 m ρ c),
       (h c _ (mem_uc main_arg1 (by decide))).trans (W13_main_arg1 m ρ c),
       (h c _ (mem_uc main_arg2 (by decide))).trans (W13_main_arg2 m ρ c),
       (h c _ (mem_uc main_arg3 (by decide))).trans (W13_main_arg3 m ρ c),
       (h c _ (mem_uc main_arg4 (by decide))).trans (W13_main_arg4 m ρ c),
       (h c _ (mem_uc main_arg5 (by decide))).trans (W13_main_arg5 m ρ c),
       (h c _ (mem_uc main_arg6 (by decide))).trans (W13_main_arg6 m ρ c),
       (h c _ (mem_uc main_arg7 (by decide))).trans (W13_main_arg7 m ρ c),
       (h c _ (mem_uc main_arg8 (by decide))).trans (W13_main_arg8 m ρ c),
       (h c _ (mem_uc main_arg9 (by decide))).trans (W13_main_arg9 m ρ c),
       (h c _ (mem_uc main_arg10 (by decide))).trans (W13_main_arg10 m ρ c)⟩)

end Cert.KernelIdeal.Gen

end
-- ==== Proof.Spec.lean ====
/-
  The function both programs compute, as one term over the argument arrays.

  A graph-convolution layer, after its dense transform `h = x · W`, gathers `h` at the source end of every edge
  (the given edges followed by one self-loop per node), scales each gathered row by the symmetric normalisation
  `dinv[src] · dinv[dst]` (`dinv` the inverse square root of the in-degree, zero where the degree is not
  positive), adds the rows into their destination nodes, adds the bias and clamps at zero.  Two such layers are
  followed by a mean over the nodes of each graph and a two-layer head.  Only the dense products are computed
  differently by the two programs; everything else here is the same chain of operations on both sides, and it is
  never opened: it is carried as the functions below, applied to equal operands.
-/
import proofs.«156952_j62904091017570_1_alg».proof.ReferenceIdeal
import Idealize.ShloMosaic.PureOps.Ideal

noncomputable section

namespace Cert.Spec

open Idealize.ShloMosaic Idealize.SL.Sem
open Cert.ReferenceIdeal Cert.ReferenceIdeal.Facts₀ Cert.ReferenceIdeal.Facts

variable {F : FTy → Type} [FloatOps F] [Cert.ReferenceIdeal.Facts]

/-- A row of edge ends followed by the node numbers `0 … 99999` (the self-loops). -/
def withLoops (a : (⟨S1600000, .i32⟩ : BufTy).Contents (Elt F)) (b : (⟨S100000, .i32⟩ : BufTy).Contents (Elt F)) :
    (⟨S1700000, .i32⟩ : BufTy).Contents (Elt F) :=
  concatenate S1700000 0 [⟨S1600000, a⟩, ⟨S100000, b⟩] concatenates_S1600000_S100000_S1700000_d0

/-- The source end of every edge: row 0 of the edge list, then the self-loops. -/
def src (ei : (⟨S2x1600000, .i32⟩ : BufTy).Contents (Elt F)) : (⟨S1700000, .i32⟩ : BufTy).Contents (Elt F) :=
  withLoops (shapeCast _ (extractStridedSlice S1x1600000 ![0, 0] ei slices_S2x1600000_S1x1600000_0_0) shapeCasts_S1x1600000_S1600000)
    (iotaInDim S100000 32 0)

/-- The destination end of every edge: row 1 of the edge list, then the self-loops. -/
def dst (ei : (⟨S2x1600000, .i32⟩ : BufTy).Contents (Elt F)) : (⟨S1700000, .i32⟩ : BufTy).Contents (Elt F) :=
  withLoops (shapeCast _ (extractStridedSlice S1x1600000 ![1, 0] ei slices_S2x1600000_S1x1600000_1_0) shapeCasts_S1x1600000_S1600000)
    (iotaInDim S100000 32 0)

/-- The in-degree of every node: a one added at the destination of every edge. -/
def deg (d : (⟨S1700000, .i32⟩ : BufTy).Contents (Elt F)) : (⟨S100000, .f32⟩ : BufTy).Contents (Elt F) :=
  Host.scatterAdd scatter_S100000_S1700000x1_S1700000_n_0_0_1
    (broadcastInDim S100000 ![] bcast_S_S100000 (constant S_ .f32 0x00000000#32))
    (broadcastInDim S1700000x1 ![0] bcast_S1700000_S1700000x1_0 d)
    (broadcastInDim S1700000 ![] bcast_S_S1700000 (constant S_ .f32 0x3F800000#32))

/-- The inverse square root of the degree where it is positive, zero elsewhere. -/
def dinv (d : (⟨S1700000, .i32⟩ : BufTy).Contents (Elt F)) : (⟨S100000, .f32⟩ : BufTy).Contents (Elt F) :=
  select (cmpf (F := F) .ogt (deg d) (broadcastInDim S100000 ![] bcast_S_S100000 (constant S_ .f32 0x00000000#32)))
    (Host.rsqrt (deg d))
    (broadcastInDim S100000 ![] bcast_S_S100000 (constant S_ .f32 0x00000000#32))

/-- A node number as a gather index: a negative one counts from the end. -/
def wrap (ix : (⟨S1700000, .i32⟩ : BufTy).Contents (Elt F)) : (⟨S1700000x1, .i32⟩ : BufTy).Contents (Elt F) :=
  broadcastInDim S1700000x1 ![0] bcast_S1700000_S1700000x1_0
    (select (cmpi .slt ix (broadcastInDim S1700000 ![] bcast_S_S1700000 (constantI S_ 32 0#32)))
      (addi ix (broadcastInDim S1700000 ![] bcast_S_S1700000 (constantI S_ 32 100000#32)))
      ix)

/-- The weight of every edge: `dinv` at its source times `dinv` at its destination. -/
def norm (s d : (⟨S1700000, .i32⟩ : BufTy).Contents (Elt F)) : (⟨S1700000, .f32⟩ : BufTy).Contents (Elt F) :=
  mulf (Host.gather gather_S100000_S1700000x1_S1700000_n_0_n_n_0_1_1 (dinv d) (wrap s))
    (Host.gather gather_S100000_S1700000x1_S1700000_n_0_n_n_0_1_1 (dinv d) (wrap d))

/-- A layer after its dense transform `h`: gather at the sources, weigh, add into the destinations, add the bias,
    clamp at zero. -/
def conv (h : (⟨S100000x128, .f32⟩ : BufTy).Contents (Elt F)) (s d : (⟨S1700000, .i32⟩ : BufTy).Contents (Elt F))
    (n : (⟨S1700000, .f32⟩ : BufTy).Contents (Elt F)) (b : (⟨S128, .f32⟩ : BufTy).Contents (Elt F)) :
    (⟨S100000x128, .f32⟩ : BufTy).Contents (Elt F) :=
  maximumf
    (addf
      (Host.scatterAdd scatter_S100000x128_S1700000x1_S1700000x128_1_0_0_1
        (broadcastInDim S100000x128 ![] bcast_S_S100000x128 (constant S_ .f32 0x00000000#32))
        (broadcastInDim S1700000x1 ![0] bcast_S1700000_S1700000x1_0 d)
        (mulf (Host.gather gather_S100000x128_S1700000x1_S1700000x128_1_0_n_n_0_1_1128 h (wrap s))
          (broadcastInDim S1700000x128 ![0, 1] bcast_S1700000x1_S1700000x128_0_1
            (broadcastInDim S1700000x1 ![0] bcast_S1700000_S1700000x1_0 n))))
      (broadcastInDim S100000x128 ![0, 1] bcast_S1x128_S100000x128_0_1 (broadcastInDim S1x128 ![1] bcast_S128_S1x128_1 b)))
    (broadcastInDim S100000x128 ![] bcast_S_S100000x128 (constant S_ .f32 0x00000000#32))

/-- The mean of the node rows of each graph: the rows added per graph, over the node count clamped below at one. -/
def pool (h : (⟨S100000x128, .f32⟩ : BufTy).Contents (Elt F)) (g : (⟨S100000, .i32⟩ : BufTy).Contents (Elt F)) :
    (⟨S512x128, .f32⟩ : BufTy).Contents (Elt F) :=
  Host.divf
    (Host.scatterAdd scatter_S512x128_S100000x1_S100000x128_1_0_0_1
      (broadcastInDim S512x128 ![] bcast_S_S512x128 (constant S_ .f32 0x00000000#32))
      (broadcastInDim S100000x1 ![0] bcast_S100000_S100000x1_0 g) h)
    (broadcastInDim S512x128 ![0, 1] bcast_S512x1_S512x128_0_1
      (broadcastInDim S512x1 ![0] bcast_S512_S512x1_0
        (maximumf
          (Host.scatterAdd scatter_S512_S100000x1_S100000_n_0_0_1
            (broadcastInDim S512 ![] bcast_S_S512 (constant S_ .f32 0x00000000#32))
            (broadcastInDim S100000x1 ![0] bcast_S100000_S100000x1_0 g)
            (broadcastInDim S100000 ![] bcast_S_S100000 (constant S_ .f32 0x3F800000#32)))
          (broadcastInDim S512 ![] bcast_S_S512 (constant S_ .f32 0x3F800000#32)))))

/-- The dense transform of a layer. -/
def dense (x : (⟨S100000x128, .f32⟩ : BufTy).Contents (Elt F)) (w : (⟨S128x128, .f32⟩ : BufTy).Contents (Elt F)) :
    (⟨S100000x128, .f32⟩ : BufTy).Contents (Elt F) :=
  Host.dotGeneral dot_S100000x128_S128x128_S100000x128_1_0_0_1_n_n none x w

/-- The head's hidden layer: a dense product, the bias added to every row, clamped at zero. -/
def hidden (g : (⟨S512x128, .f32⟩ : BufTy).Contents (Elt F)) (w : (⟨S128x128, .f32⟩ : BufTy).Contents (Elt F))
    (b : (⟨S128, .f32⟩ : BufTy).Contents (Elt F)) : (⟨S512x128, .f32⟩ : BufTy).Contents (Elt F) :=
  maximumf
    (addf (Host.dotGeneral dot_S512x128_S128x128_S512x128_1_0_0_1_n_n none g w)
      (broadcastInDim S512x128 ![0, 1] bcast_S1x128_S512x128_0_1 (broadcastInDim S1x128 ![1] bcast_S128_S1x128_1 b)))
    (broadcastInDim S512x128 ![] bcast_S_S512x128 (constant S_ .f32 0x00000000#32))

/-- The head's output layer: a dense product and the bias added to every row. -/
def output (g : (⟨S512x128, .f32⟩ : BufTy).Contents (Elt F)) (w : (⟨S128x64, .f32⟩ : BufTy).Contents (Elt F))
    (b : (⟨S64, .f32⟩ : BufTy).Contents (Elt F)) : (⟨S512x64, .f32⟩ : BufTy).Contents (Elt F) :=
  addf (Host.dotGeneral dot_S512x128_S128x64_S512x64_1_0_0_1_n_n none g w)
    (broadcastInDim S512x64 ![0, 1] bcast_S1x64_S512x64_0_1 (broadcastInDim S1x64 ![1] bcast_S64_S1x64_1 b))

/-- The whole network. -/
def net (x : (⟨S100000x128, .f32⟩ : BufTy).Contents (Elt F)) (ei : (⟨S2x1600000, .i32⟩ : BufTy).Contents (Elt F))
    (g : (⟨S100000, .i32⟩ : BufTy).Contents (Elt F))
    (w1 : (⟨S128x128, .f32⟩ : BufTy).Contents (Elt F)) (b1 : (⟨S128, .f32⟩ : BufTy).Contents (Elt F))
    (w2 : (⟨S128x128, .f32⟩ : BufTy).Contents (Elt F)) (b2 : (⟨S128, .f32⟩ : BufTy).Contents (Elt F))
    (w3 : (⟨S128x128, .f32⟩ : BufTy).Contents (Elt F)) (b3 : (⟨S128, .f32⟩ : BufTy).Contents (Elt F))
    (w4 : (⟨S128x64, .f32⟩ : BufTy).Contents (Elt F)) (b4 : (⟨S64, .f32⟩ : BufTy).Contents (Elt F)) :
    (⟨S512x64, .f32⟩ : BufTy).Contents (Elt F) :=
  output
    (hidden
      (pool
        (conv (dense (conv (dense x w1) (src ei) (dst ei) (norm (src ei) (dst ei)) b1) w2)
          (src ei) (dst ei) (norm (src ei) (dst ei)) b2)
        g)
      w3 b3)
    w4 b4

end Cert.Spec

end
-- ==== Proof.KernelHost.lean ====
/-
  The kernel program's host operations between its four regions, each stretch read as a function of the buffer
  contents it starts from.

  The operations before the first region compute the two ends of every edge and the edge weights from the edge
  list; the stretch after each of the first two regions finishes a graph-convolution layer from the region's
  dense product; the stretch before the third region also takes the per-graph mean and lays the third bias out
  as a row; the stretch before the fourth lays the fourth bias out as a row.  Each is the corresponding shared
  function of the contents it reads, and nothing here opens those functions.
-/
import proofs.«156952_j62904091017570_1_alg».proof.Proof.Gen.KernelIdeal.Launch
import proofs.«156952_j62904091017570_1_alg».proof.Proof.Spec
import Idealize.ShloMosaic.Lib.StableHlo.Run

set_option maxRecDepth 16384

noncomputable section

namespace Cert.KernelIdeal.Host

open Idealize.ShloMosaic Idealize.ShloMosaic.TcCoe Idealize.SL.Sem Idealize.ShloMosaic.StableHlo
open Cert.KernelIdeal Cert.KernelIdeal.Gen

variable {F : FTy → Type} [FloatOps F] [Cert.ReferenceIdeal.Facts]

/-! ## Before the first region: the edge ends and the edge weights -/

/-- The contents after the operations that precede the first region, from the contents `X`. -/
abbrev pre (X : Valuation τ sig (Elt F)) : Valuation τ sig (Elt F) :=
  StableHlo.after hostOps0_2 (StableHlo.after hostOps0_1 (StableHlo.after hostOps0 X))

theorem pre_src (X : Valuation τ sig (Elt F)) :
    pre X (Proc.devRef .tc main_v3) = Cert.Spec.src (F := F) (X (Proc.devRef .tc main_arg1)) := by
  after_results
  rfl

theorem pre_dst (X : Valuation τ sig (Elt F)) :
    pre X (Proc.devRef .tc main_v6) = Cert.Spec.dst (F := F) (X (Proc.devRef .tc main_arg1)) := by
  after_results
  rfl

/-- What is left inside the two joined rows once the outer operations are read: a few operations, read one by one. -/
macro "read_rows" : tactic =>
  `(tactic| repeat (first
      | rw [nullary_result] | rw [unary_result] | rw [binary_result] | rw [reshape_result]
      | (rw [nullary_result_ne]; rotate_left; decide)
      | (rw [unary_result_ne]; rotate_left; decide)
      | (rw [binary_result_ne]; rotate_left; decide)
      | (rw [reshape_result_ne]; rotate_left; decide)))

theorem pre_norm (X : Valuation τ sig (Elt F)) :
    pre X (Proc.devRef .tc main_v30)
      = Cert.Spec.norm (F := F) (Cert.Spec.src (X (Proc.devRef .tc main_arg1))) (Cert.Spec.dst (X (Proc.devRef .tc main_arg1))) := by
  after_results_simp
  read_rows
  rfl

/-! ## After the first region: the first layer finished -/

abbrev mid1 (X : Valuation τ sig (Elt F)) : Valuation τ sig (Elt F) :=
  StableHlo.after hostOps1_1 (StableHlo.after hostOps1 X)

theorem mid1_layer (X : Valuation τ sig (Elt F)) :
    mid1 X (Proc.devRef .tc main_v48)
      = Cert.Spec.conv (F := F) (X (Proc.devRef .tc main_v31)) (X (Proc.devRef .tc main_v3)) (X (Proc.devRef .tc main_v6))
          (X (Proc.devRef .tc main_v30)) (X (Proc.devRef .tc main_arg4)) := by
  after_results_simp
  rfl

/-! ## After the second region: the second layer finished, the mean per graph, the third bias as a row -/

abbrev mid2 (X : Valuation τ sig (Elt F)) : Valuation τ sig (Elt F) :=
  StableHlo.after hostOps2_2 (StableHlo.after hostOps2_1 (StableHlo.after hostOps2 X))

theorem mid2_pool (X : Valuation τ sig (Elt F)) :
    mid2 X (Proc.devRef .tc main_v78)
      = Cert.Spec.pool (F := F)
          (Cert.Spec.conv (X (Proc.devRef .tc main_v49)) (X (Proc.devRef .tc main_v3)) (X (Proc.devRef .tc main_v6))
            (X (Proc.devRef .tc main_v30)) (X (Proc.devRef .tc main_arg6)))
          (X (Proc.devRef .tc main_arg2)) := by
  after_results_simp
  rfl

theorem mid2_bias (X : Valuation τ sig (Elt F)) :
    mid2 X (Proc.devRef .tc main_v79) = shapeCast S1x128 (X (Proc.devRef .tc main_arg8)) shapeCasts_S128_S1x128 := by
  after_results_simp
  rfl

/-! ## Before the fourth region: the fourth bias as a row -/

abbrev mid3 (X : Valuation τ sig (Elt F)) : Valuation τ sig (Elt F) := StableHlo.after hostOps3 X

theorem mid3_bias (X : Valuation τ sig (Elt F)) :
    mid3 X (Proc.devRef .tc main_v81) = shapeCast S1x64 (X (Proc.devRef .tc main_arg10)) shapeCasts_S64_S1x64 := by
  after_results_simp
  rfl

end Cert.KernelIdeal.Host

end
-- ==== Proof.KernelBody.lean ====
/-
  The kernel bodies as pure functions of their loaded blocks, at the ideal values.

  Each body rounds its two operands to bf16 (the identity on exact values), multiplies them into a zero
  accumulator — entry (p, q) of the product is the sum over k of the left operand at (p, k) times the right at
  (k, q), the host's `dot_general` being the same sum — and, in the head, adds the bias row to every row and, for
  the hidden layer, clamps at zero.
-/
import proofs.«156952_j62904091017570_1_alg».proof.Proof.Gen.KernelIdeal.Skeleton
import proofs.«156952_j62904091017570_1_alg».proof.Proof.Spec
import proofs.«156952_j62904091017570_1_alg».proof.Proof.Gen.ReferenceIdeal
import Idealize.ShloMosaic.PureOps.Ideal.Laws
import Idealize.ShloMosaic.Lib.Pipeline.Value
import Idealize.ShloMosaic.Lib.ValueIdx
import Idealize.ShloMosaic.Lib.ValueLayout

set_option maxRecDepth 16384

noncomputable section

namespace Cert.KernelIdeal.Body

open Idealize.ShloMosaic Idealize.ShloMosaic.ValueIdx Idealize.SL.Sem
open Cert.KernelIdeal Cert.KernelIdeal.Gen

/-! ## The operand indices of the two dense products over the node rows -/

theorem whole_l0 (i : Cert.ReferenceIdeal.S100000x128.Idx) (q : Cert.ReferenceIdeal.dot_S100000x128_S128x128_S100000x128_1_0_0_1_n_n.contr.Idx) : (Cert.ReferenceIdeal.dot_S100000x128_S128x128_S100000x128_1_0_0_1_n_n.lhsIdx i q 0).val = (i 0).val := by
  unfold DotDims.lhsIdx
  rw [dif_neg (show ¬(0 : Fin Cert.ReferenceIdeal.S100000x128.rank) ∈ Cert.ReferenceIdeal.dot_S100000x128_S128x128_S100000x128_1_0_0_1_n_n.lhsBatch by decide), dif_pos (show (0 : Fin Cert.ReferenceIdeal.S100000x128.rank) ∈ Cert.ReferenceIdeal.dot_S100000x128_S128x128_S100000x128_1_0_0_1_n_n.lhsNonContracting by decide)]
  rfl
theorem whole_l1 (i : Cert.ReferenceIdeal.S100000x128.Idx) (q : Cert.ReferenceIdeal.dot_S100000x128_S128x128_S100000x128_1_0_0_1_n_n.contr.Idx) : (Cert.ReferenceIdeal.dot_S100000x128_S128x128_S100000x128_1_0_0_1_n_n.lhsIdx i q 1).val = (q ⟨0, by decide⟩).val :=
  Cert.ReferenceIdeal.dot_S100000x128_S128x128_S100000x128_1_0_0_1_n_n.lhsIdx_val_of_single rfl i q
theorem whole_r0 (i : Cert.ReferenceIdeal.S100000x128.Idx) (q : Cert.ReferenceIdeal.dot_S100000x128_S128x128_S100000x128_1_0_0_1_n_n.contr.Idx) : (Cert.ReferenceIdeal.dot_S100000x128_S128x128_S100000x128_1_0_0_1_n_n.rhsIdx i q 0).val = (q ⟨0, by decide⟩).val :=
  Cert.ReferenceIdeal.dot_S100000x128_S128x128_S100000x128_1_0_0_1_n_n.rhsIdx_val_of_single rfl i q
theorem whole_r1 (i : Cert.ReferenceIdeal.S100000x128.Idx) (q : Cert.ReferenceIdeal.dot_S100000x128_S128x128_S100000x128_1_0_0_1_n_n.contr.Idx) : (Cert.ReferenceIdeal.dot_S100000x128_S128x128_S100000x128_1_0_0_1_n_n.rhsIdx i q 1).val = (i 1).val := by
  unfold DotDims.rhsIdx
  rw [dif_neg (show ¬(1 : Fin Cert.ReferenceIdeal.S128x128.rank) ∈ Cert.ReferenceIdeal.dot_S100000x128_S128x128_S100000x128_1_0_0_1_n_n.rhsBatch by decide), dif_pos (show (1 : Fin Cert.ReferenceIdeal.S128x128.rank) ∈ Cert.ReferenceIdeal.dot_S100000x128_S128x128_S100000x128_1_0_0_1_n_n.rhsNonContracting by decide)]
  rfl

theorem blk_l0 (i : S10000x128.Idx) (q : dot_S10000x128_S128x128_S10000x128_1_0_0_1_n_n.contr.Idx) : (dot_S10000x128_S128x128_S10000x128_1_0_0_1_n_n.lhsIdx i q 0).val = (i 0).val := by
  unfold DotDims.lhsIdx
  rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
  rfl
theorem blk_l1 (i : S10000x128.Idx) (q : dot_S10000x128_S128x128_S10000x128_1_0_0_1_n_n.contr.Idx) : (dot_S10000x128_S128x128_S10000x128_1_0_0_1_n_n.lhsIdx i q 1).val = (q ⟨0, by decide⟩).val :=
  dot_S10000x128_S128x128_S10000x128_1_0_0_1_n_n.lhsIdx_val_of_single rfl i q
theorem blk_r0 (i : S10000x128.Idx) (q : dot_S10000x128_S128x128_S10000x128_1_0_0_1_n_n.contr.Idx) : (dot_S10000x128_S128x128_S10000x128_1_0_0_1_n_n.rhsIdx i q 0).val = (q ⟨0, by decide⟩).val :=
  dot_S10000x128_S128x128_S10000x128_1_0_0_1_n_n.rhsIdx_val_of_single rfl i q
theorem blk_r1 (i : S10000x128.Idx) (q : dot_S10000x128_S128x128_S10000x128_1_0_0_1_n_n.contr.Idx) : (dot_S10000x128_S128x128_S10000x128_1_0_0_1_n_n.rhsIdx i q 1).val = (i 1).val := by
  unfold DotDims.rhsIdx
  rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
  rfl

/-- The host's dense product of the node rows, entry by entry. -/
theorem dense_apply (x : (⟨Cert.ReferenceIdeal.S100000x128, .f32⟩ : BufTy).Contents (Elt Ideal))
    (w : (⟨Cert.ReferenceIdeal.S128x128, .f32⟩ : BufTy).Contents (Elt Ideal)) (r : Fin 100000) (q : Fin 128) :
    Cert.Spec.dense (F := Ideal) x w (ix2 r q) = ∑ k : Fin 128, x (ix2 r k) * w (ix2 k q) := by
  unfold Cert.Spec.dense
  simp only [Host.dotGeneral]
  rw [Ideal.dotGeneral_apply, ← Equiv.sum_comp (contrEquiv1 Cert.ReferenceIdeal.dot_S100000x128_S128x128_S100000x128_1_0_0_1_n_n 128 rfl rfl).symm]
  refine Finset.sum_congr rfl fun k _ => ?_
  have hk := contrEquiv1_symm_val Cert.ReferenceIdeal.dot_S100000x128_S128x128_S100000x128_1_0_0_1_n_n 128 rfl rfl k
  have el : Cert.ReferenceIdeal.dot_S100000x128_S128x128_S100000x128_1_0_0_1_n_n.lhsIdx (ix2 r q) ((contrEquiv1 Cert.ReferenceIdeal.dot_S100000x128_S128x128_S100000x128_1_0_0_1_n_n 128 rfl rfl).symm k) = ix2 r k := funext fun a => Fin.ext (by
    match a with
    | ⟨0, _⟩ => exact whole_l0 _ _
    | ⟨1, _⟩ => exact (whole_l1 _ _).trans hk)
  have er : Cert.ReferenceIdeal.dot_S100000x128_S128x128_S100000x128_1_0_0_1_n_n.rhsIdx (ix2 r q) ((contrEquiv1 Cert.ReferenceIdeal.dot_S100000x128_S128x128_S100000x128_1_0_0_1_n_n 128 rfl rfl).symm k) = ix2 k q := funext fun a => Fin.ext (by
    match a with
    | ⟨0, _⟩ => exact (whole_r0 _ _).trans hk
    | ⟨1, _⟩ => exact whole_r1 _ _)
  rw [el, er]

/-- A block of rows times the weights on the matrix unit, into zero, entry by entry. -/
theorem mm_blk_apply (xb : Vec Ideal S10000x128 .f32) (wb : Vec Ideal S128x128 .f32) (p : Fin 10000) (q : Fin 128) :
    matmul dot_S10000x128_S128x128_S10000x128_1_0_0_1_n_n none (truncf .bf16 xb bitsLt_bf16_f32 : FVec Ideal S10000x128 .bf16)
        (truncf .bf16 wb bitsLt_bf16_f32 : FVec Ideal S128x128 .bf16) (constant S10000x128 .f32 0x00000000#32) (ix2 p q)
      = ∑ k : Fin 128, xb (ix2 p k) * wb (ix2 k q) := by
  refine (Ideal.matmul_constant_zero_apply dot_S10000x128_S128x128_S10000x128_1_0_0_1_n_n none _ _ (ix2 p q)).trans ?_
  rw [← Equiv.sum_comp (contrEquiv1 dot_S10000x128_S128x128_S10000x128_1_0_0_1_n_n 128 rfl rfl).symm]
  refine Finset.sum_congr rfl fun k _ => ?_
  have hk := contrEquiv1_symm_val dot_S10000x128_S128x128_S10000x128_1_0_0_1_n_n 128 rfl rfl k
  have el : dot_S10000x128_S128x128_S10000x128_1_0_0_1_n_n.lhsIdx (ix2 p q) ((contrEquiv1 dot_S10000x128_S128x128_S10000x128_1_0_0_1_n_n 128 rfl rfl).symm k) = ix2 p k := funext fun a => Fin.ext (by
    match a with
    | ⟨0, _⟩ => exact blk_l0 _ _
    | ⟨1, _⟩ => exact (blk_l1 _ _).trans hk)
  have er : dot_S10000x128_S128x128_S10000x128_1_0_0_1_n_n.rhsIdx (ix2 p q) ((contrEquiv1 dot_S10000x128_S128x128_S10000x128_1_0_0_1_n_n 128 rfl rfl).symm k) = ix2 k q := funext fun a => Fin.ext (by
    match a with
    | ⟨0, _⟩ => exact (blk_r0 _ _).trans hk
    | ⟨1, _⟩ => exact blk_r1 _ _)
  rw [el, er]
  rfl

/-- The first region's body: the block of rows times the weights. -/
theorem pay0_apply (xb : Vec Ideal S10000x128 .f32) (wb : Vec Ideal S128x128 .f32) (p : Fin 10000) (q : Fin 128) :
    k0_pay1 xb wb (ix2 p q) = ∑ k : Fin 128, xb (ix2 p k) * wb (ix2 k q) := by
  unfold k0_pay1
  exact mm_blk_apply xb wb p q

/-- The second region's body: the same product (its block arrives through a cast to its own shape). -/
theorem pay1_apply (xb : Vec Ideal S10000x128 .f32) (wb : Vec Ideal S128x128 .f32) (p : Fin 10000) (q : Fin 128) :
    k1_pay1 xb wb (ix2 p q) = ∑ k : Fin 128, xb (ix2 p k) * wb (ix2 k q) := by
  unfold k1_pay1
  rw [shapeCast_self]
  exact mm_blk_apply xb wb p q

/-! ## The head -/

/-- A matrix product into zero on the matrix unit is the host's `dot_general` of the same operands: one sum. -/
theorem mm_hidden (g : FVec Ideal S512x128 .f32) (w : FVec Ideal S128x128 .f32) (j : S512x128.Idx) :
    matmul dot_S512x128_S128x128_S512x128_1_0_0_1_n_n none (truncf .bf16 g bitsLt_bf16_f32 : FVec Ideal S512x128 .bf16)
        (truncf .bf16 w bitsLt_bf16_f32 : FVec Ideal S128x128 .bf16) (constant S512x128 .f32 0x00000000#32) j
      = Host.dotGeneral Cert.ReferenceIdeal.dot_S512x128_S128x128_S512x128_1_0_0_1_n_n none g w j := by
  refine (Ideal.matmul_constant_zero_apply dot_S512x128_S128x128_S512x128_1_0_0_1_n_n none _ _ j).trans ?_
  simp only [Host.dotGeneral]
  rw [Ideal.dotGeneral_apply]
  rfl

theorem mm_output (g : FVec Ideal S512x128 .f32) (w : FVec Ideal S128x64 .f32) (j : S512x64.Idx) :
    matmul dot_S512x128_S128x64_S512x64_1_0_0_1_n_n none (truncf .bf16 g bitsLt_bf16_f32 : FVec Ideal S512x128 .bf16)
        (truncf .bf16 w bitsLt_bf16_f32 : FVec Ideal S128x64 .bf16) (constant S512x64 .f32 0x00000000#32) j
      = Host.dotGeneral Cert.ReferenceIdeal.dot_S512x128_S128x64_S512x64_1_0_0_1_n_n none g w j := by
  refine (Ideal.matmul_constant_zero_apply dot_S512x128_S128x64_S512x64_1_0_0_1_n_n none _ _ j).trans ?_
  simp only [Host.dotGeneral]
  rw [Ideal.dotGeneral_apply]
  rfl

/-- A bias laid out as a row and repeated down the rows is the bias broadcast along the columns, entry by entry. -/
theorem bias_row {R N : Nat} (b : (⟨1, ![N]⟩ : Shape).Idx → EReal)
    (h1 : (⟨1, ![N]⟩ : Shape).ShapeCasts ⟨2, ![1, N]⟩) (h2 : (⟨2, ![1, N]⟩ : Shape).Broadcasts ⟨2, ![R, N]⟩)
    (h3 : (⟨1, ![N]⟩ : Shape).BroadcastsInDim ⟨2, ![1, N]⟩ ![1]) (h4 : (⟨2, ![1, N]⟩ : Shape).BroadcastsInDim ⟨2, ![R, N]⟩ ![0, 1])
    (hN : N ≠ 1) (p : Fin R) (q : Fin N) :
    broadcastTo ⟨2, ![R, N]⟩ (shapeCast ⟨2, ![1, N]⟩ b h1) h2 (ix2 p q)
      = broadcastInDim ⟨2, ![R, N]⟩ ![0, 1] h4 (broadcastInDim ⟨2, ![1, N]⟩ ![1] h3 b) (ix2 p q) := by
  rw [broadcastTo_1b_ab_apply, shapeCast_a_1a_apply]
  rw [broadcastInDim_apply ![0, 1] h4 _ (ix2 p q) (ix2 (0 : Fin 1) q) (fun a => by
    match a with
    | ⟨0, _⟩ => rfl
    | ⟨1, _⟩ => exact (if_neg hN).symm)]
  rw [broadcastInDim_apply ![1] h3 b (ix2 (0 : Fin 1) q) (ix1 q) (fun a => by
    match a with
    | ⟨0, _⟩ => exact (if_neg hN).symm)]

/-- The zero a body splats is the host's zero constant broadcast to every entry. -/
theorem zero_splat {t : Shape} (h : (⟨0, ![]⟩ : Shape).BroadcastsInDim t ![]) (j : t.Idx) :
    (FloatOps.ofBits (F := Ideal) .f32 0x00000000#32 : EReal)
      = broadcastInDim t ![] h (constant (F := Ideal) ⟨0, ![]⟩ .f32 0x00000000#32) j := by
  rw [broadcastInDim_apply ![] h _ j ix0 (fun a => a.elim0)]
  rfl

/-- The third region's body, with the bias laid out as a row: the head's hidden layer. -/
theorem pay2_eq (g : Vec Ideal S512x128 .f32) (w : Vec Ideal S128x128 .f32) (b : (⟨S128, .f32⟩ : BufTy).Contents (Elt Ideal)) :
    k2_pay1 g w (shapeCast S1x128 b shapeCasts_S128_S1x128) = Cert.Spec.hidden (F := Ideal) g w b := by
  funext j
  obtain ⟨p, q, rfl⟩ : ∃ (p : Fin 512) (q : Fin 128), j = ix2 p q := ⟨j 0, j 1, eq_ix2 j⟩
  unfold k2_pay1 Cert.Spec.hidden
  rw [shapeCast_self, shapeCast_self]
  simp only [maximumf_apply, addf_apply, broadcast_apply]
  refine congrArg₂ max (congrArg₂ (· + ·) (mm_hidden g w _) ?_) (zero_splat _ _)
  exact bias_row (R := 512) (N := 128) b _ _ _ _ (by decide) p q

/-- The fourth region's body, with the bias laid out as a row: the head's output layer. -/
theorem pay3_eq (g : Vec Ideal S512x128 .f32) (w : Vec Ideal S128x64 .f32) (b : (⟨S64, .f32⟩ : BufTy).Contents (Elt Ideal)) :
    k3_pay1 g w (shapeCast S1x64 b shapeCasts_S64_S1x64) = Cert.Spec.output (F := Ideal) g w b := by
  funext j
  obtain ⟨p, q, rfl⟩ : ∃ (p : Fin 512) (q : Fin 64), j = ix2 p q := ⟨j 0, j 1, eq_ix2 j⟩
  unfold k3_pay1 Cert.Spec.output
  rw [shapeCast_self, shapeCast_self]
  simp only [addf_apply]
  refine congrArg₂ (· + ·) (mm_output g w _) ?_
  exact bias_row (R := 512) (N := 64) b _ _ _ _ (by decide) p q

end Cert.KernelIdeal.Body

end
-- ==== Proof.KernelRegions.lean ====
/-
  What each region leaves in its output array, as one whole-array function of the arrays the region finds.

  A region's grid point writes back one block of its output; the blocks of all points tile the array.  For the two
  dense products over the node rows a block is 10000 rows: row p of point t's block is row 10000·t + p of the
  array, the weights' window is the whole matrix at every point, so the block the body stores is that block of
  the whole product.  The head's two regions have one point whose blocks are the whole arrays.
-/
import proofs.«156952_j62904091017570_1_alg».proof.Proof.Gen.KernelIdeal.Frame
import proofs.«156952_j62904091017570_1_alg».proof.Proof.KernelBody
import Idealize.ShloMosaic.Lib.Pipeline.Value

set_option maxRecDepth 16384

noncomputable section

namespace Cert.KernelIdeal.Regions

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-! ## Region 0: a dense product over the node rows -/

/-- The index maps over the grid: the rows' windows move with the point, the weights' window stays. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of the whole product. -/
theorem flushed0 (c : Dev nD) (t : Fin cfg0.N) :
    (dat0 V c).flushed 2 t
      = ((cfg0.win 2).blk t).view.read (Elt Ideal) (Cert.Spec.dense (F := Ideal) (V c main_arg0) (V c main_arg3)) := by
  show (cfg0.win 2).cut (grid0.coords t) ((dat0 V c).after 2 t) = _
  rw [after0_2]
  unfold out0_2
  rw [View.canon_unit_zero hz]
  simp only [View.ld_unit_zero (S := S10000x128) hz, View.ld_unit_zero (S := S128x128) hz]
  obtain ⟨e0, e1, e2, e3, e4, e5⟩ := idx0 t
  have hN : cfg0.N = 10 := N_0
  have ht : t.val < 10 := hN ▸ t.isLt
  funext j
  obtain ⟨p, q, rfl⟩ : ∃ (p : Fin 10000) (q : Fin 128), j = ix2 p q := ⟨j 0, j 1, eq_ix2 j⟩
  have hp : p.val < 10000 := p.isLt
  show k0_pay1 (iblk0 V c 0 t) (iblk0 V c 1 t) (ix2 p q)
    = Cert.Spec.dense (F := Ideal) (V c main_arg0) (V c main_arg3) (((cfg0.win 2).blk t).view.emb (ix2 p q))
  rw [Body.pay0_apply]
  have h2 : ((cfg0.win 2).blk t).view.emb (ix2 p q) = ix2 (⟨t.val * 10000 + p.val, by omega⟩ : Fin 100000) q := by
    funext a; apply Fin.ext
    match a with
    | ⟨0, _⟩ => show win0_2.index t (0 : Fin 2) * 10000 + 1 * p.val = t.val * 10000 + p.val; rw [e4]; omega
    | ⟨1, _⟩ => show win0_2.index t (1 : Fin 2) * 128 + 1 * q.val = q.val; rw [e5]; omega
  rw [h2, Body.dense_apply]
  refine Finset.sum_congr rfl fun k _ => ?_
  have h0 : iblk0 V c 0 t (ix2 p k) = V c main_arg0 (ix2 (⟨t.val * 10000 + p.val, by omega⟩ : Fin 100000) k) := by
    unfold iblk0
    rw [View.read_apply]
    show V c main_arg0 _ = V c main_arg0 _
    refine congrArg (V c main_arg0) ?_
    funext a; apply Fin.ext
    match a with
    | ⟨0, _⟩ => show win0_0.index t (0 : Fin 2) * 10000 + 1 * p.val = t.val * 10000 + p.val; rw [e0]; omega
    | ⟨1, _⟩ => show win0_0.index t (1 : Fin 2) * 128 + 1 * k.val = k.val; rw [e1]; omega
  have h1 : iblk0 V c 1 t (ix2 k q) = V c main_arg3 (ix2 k q) := by
    unfold iblk0
    rw [View.read_apply]
    show V c main_arg3 _ = V c main_arg3 _
    refine congrArg (V c main_arg3) ?_
    funext a; apply Fin.ext
    match a with
    | ⟨0, _⟩ => show win0_1.index t (0 : Fin 2) * 128 + 1 * k.val = k.val; rw [e2]; omega
    | ⟨1, _⟩ => show win0_1.index t (1 : Fin 2) * 128 + 1 * q.val = q.val; rw [e3]; omega
  rw [h0, h1]

/-- A node row is in point `t`'s block iff it is one of rows 10000·t … 10000·t + 9999. -/
theorem mem_blk0 (t : Fin cfg0.N) (i : S100000x128.Idx) :
    i ∈ ((cfg0.win 2).blk t).view.set ↔ ∀ a : Fin 2, win0_2.index t a * S10000x128.size a ≤ (i a).val ∧ (i a).val < win0_2.index t a * S10000x128.size a + S10000x128.size a := by
  show i ∈ ((View.whole main_v31).slice (win0_2.rect t)).set ↔ _
  rw [View.set_slice_whole, Rect.mem_set_unit]
  exact Iff.rfl

/-- Every entry of the output is in the block of the point its row falls to. -/
theorem cover0 (i : S100000x128.Idx) :
    ∃ t : Fin cfg0.N, (cfg0.win 2).flush t = true ∧ i ∈ ((cfg0.win 2).blk t).view.set := by
  have hN : cfg0.N = 10 := N_0
  have hi0 : (i 0).val < 100000 := (i 0).isLt
  have hi1 : (i 1).val < 128 := (i 1).isLt
  refine ⟨⟨(i 0).val / 10000, by omega⟩, flush0_2 _, ?_⟩
  rw [mem_blk0]
  obtain ⟨e0, e1, e2, e3, e4, e5⟩ := idx0 ⟨(i 0).val / 10000, by omega⟩
  intro a
  match a with
  | ⟨0, _⟩ =>
    show win0_2.index ⟨(i 0).val / 10000, _⟩ (0 : Fin 2) * 10000 ≤ (i 0).val ∧ (i 0).val < win0_2.index ⟨(i 0).val / 10000, _⟩ (0 : Fin 2) * 10000 + 10000
    rw [e4]; show (i 0).val / 10000 * 10000 ≤ (i 0).val ∧ (i 0).val < (i 0).val / 10000 * 10000 + 10000; omega
  | ⟨1, _⟩ =>
    show win0_2.index ⟨(i 0).val / 10000, _⟩ (1 : Fin 2) * 128 ≤ (i 1).val ∧ (i 1).val < win0_2.index ⟨(i 0).val / 10000, _⟩ (1 : Fin 2) * 128 + 128
    rw [e5]; omega

/-- The region leaves the whole product in its output array. -/
theorem dense0 (c : Dev nD) :
    (dat0 V c).arrAt 2 cfg0.N = Cert.Spec.dense (F := Ideal) (V c main_arg0) (V c main_arg3) :=
  (dat0 V c).arrAt_eq_of_cover 2 _ (fun t _ => flushed0 V c t) cover0

/-! ## Region 1: a dense product over the node rows -/

/-- The index maps over the grid: the rows' windows move with the point, the weights' window stays. -/
theorem idx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point `t` writes back is block `t` of the whole product. -/
theorem flushed1 (c : Dev nD) (t : Fin cfg1.N) :
    (dat1 V c).flushed 2 t
      = ((cfg1.win 2).blk t).view.read (Elt Ideal) (Cert.Spec.dense (F := Ideal) (V c main_v48) (V c main_arg5)) := by
  show (cfg1.win 2).cut (grid1.coords t) ((dat1 V c).after 2 t) = _
  rw [after1_2]
  unfold out1_2
  rw [View.canon_unit_zero hz]
  simp only [View.ld_unit_zero (S := S10000x128) hz, View.ld_unit_zero (S := S128x128) hz]
  obtain ⟨e0, e1, e2, e3, e4, e5⟩ := idx1 t
  have hN : cfg1.N = 10 := N_1
  have ht : t.val < 10 := hN ▸ t.isLt
  funext j
  obtain ⟨p, q, rfl⟩ : ∃ (p : Fin 10000) (q : Fin 128), j = ix2 p q := ⟨j 0, j 1, eq_ix2 j⟩
  have hp : p.val < 10000 := p.isLt
  show k1_pay1 (iblk1 V c 0 t) (iblk1 V c 1 t) (ix2 p q)
    = Cert.Spec.dense (F := Ideal) (V c main_v48) (V c main_arg5) (((cfg1.win 2).blk t).view.emb (ix2 p q))
  rw [Body.pay1_apply]
  have h2 : ((cfg1.win 2).blk t).view.emb (ix2 p q) = ix2 (⟨t.val * 10000 + p.val, by omega⟩ : Fin 100000) q := by
    funext a; apply Fin.ext
    match a with
    | ⟨0, _⟩ => show win1_2.index t (0 : Fin 2) * 10000 + 1 * p.val = t.val * 10000 + p.val; rw [e4]; omega
    | ⟨1, _⟩ => show win1_2.index t (1 : Fin 2) * 128 + 1 * q.val = q.val; rw [e5]; omega
  rw [h2, Body.dense_apply]
  refine Finset.sum_congr rfl fun k _ => ?_
  have h0 : iblk1 V c 0 t (ix2 p k) = V c main_v48 (ix2 (⟨t.val * 10000 + p.val, by omega⟩ : Fin 100000) k) := by
    unfold iblk1
    rw [View.read_apply]
    show V c main_v48 _ = V c main_v48 _
    refine congrArg (V c main_v48) ?_
    funext a; apply Fin.ext
    match a with
    | ⟨0, _⟩ => show win1_0.index t (0 : Fin 2) * 10000 + 1 * p.val = t.val * 10000 + p.val; rw [e0]; omega
    | ⟨1, _⟩ => show win1_0.index t (1 : Fin 2) * 128 + 1 * k.val = k.val; rw [e1]; omega
  have h1 : iblk1 V c 1 t (ix2 k q) = V c main_arg5 (ix2 k q) := by
    unfold iblk1
    rw [View.read_apply]
    show V c main_arg5 _ = V c main_arg5 _
    refine congrArg (V c main_arg5) ?_
    funext a; apply Fin.ext
    match a with
    | ⟨0, _⟩ => show win1_1.index t (0 : Fin 2) * 128 + 1 * k.val = k.val; rw [e2]; omega
    | ⟨1, _⟩ => show win1_1.index t (1 : Fin 2) * 128 + 1 * q.val = q.val; rw [e3]; omega
  rw [h0, h1]

/-- A node row is in point `t`'s block iff it is one of rows 10000·t … 10000·t + 9999. -/
theorem mem_blk1 (t : Fin cfg1.N) (i : S100000x128.Idx) :
    i ∈ ((cfg1.win 2).blk t).view.set ↔ ∀ a : Fin 2, win1_2.index t a * S10000x128.size a ≤ (i a).val ∧ (i a).val < win1_2.index t a * S10000x128.size a + S10000x128.size a := by
  show i ∈ ((View.whole main_v49).slice (win1_2.rect t)).set ↔ _
  rw [View.set_slice_whole, Rect.mem_set_unit]
  exact Iff.rfl

/-- Every entry of the output is in the block of the point its row falls to. -/
theorem cover1 (i : S100000x128.Idx) :
    ∃ t : Fin cfg1.N, (cfg1.win 2).flush t = true ∧ i ∈ ((cfg1.win 2).blk t).view.set := by
  have hN : cfg1.N = 10 := N_1
  have hi0 : (i 0).val < 100000 := (i 0).isLt
  have hi1 : (i 1).val < 128 := (i 1).isLt
  refine ⟨⟨(i 0).val / 10000, by omega⟩, flush1_2 _, ?_⟩
  rw [mem_blk1]
  obtain ⟨e0, e1, e2, e3, e4, e5⟩ := idx1 ⟨(i 0).val / 10000, by omega⟩
  intro a
  match a with
  | ⟨0, _⟩ =>
    show win1_2.index ⟨(i 0).val / 10000, _⟩ (0 : Fin 2) * 10000 ≤ (i 0).val ∧ (i 0).val < win1_2.index ⟨(i 0).val / 10000, _⟩ (0 : Fin 2) * 10000 + 10000
    rw [e4]; show (i 0).val / 10000 * 10000 ≤ (i 0).val ∧ (i 0).val < (i 0).val / 10000 * 10000 + 10000; omega
  | ⟨1, _⟩ =>
    show win1_2.index ⟨(i 0).val / 10000, _⟩ (1 : Fin 2) * 128 ≤ (i 1).val ∧ (i 1).val < win1_2.index ⟨(i 0).val / 10000, _⟩ (1 : Fin 2) * 128 + 128
    rw [e5]; omega

/-- The region leaves the whole product in its output array. -/
theorem dense1 (c : Dev nD) :
    (dat1 V c).arrAt 2 cfg1.N = Cert.Spec.dense (F := Ideal) (V c main_v48) (V c main_arg5) :=
  (dat1 V c).arrAt_eq_of_cover 2 _ (fun t _ => flushed1 V c t) cover1

/-! ## Region 2: one point, whole arrays -/

/-- The one point's index maps are all zero. -/
theorem idx2 : ∀ t : Fin cfg2.N, win2_0.index t (0 : Fin 2) = 0 ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0 :=
  (by decide +kernel : ∀ t : Fin grid2.N, _)

/-- What the point writes back is the body's function of the whole input arrays. -/
theorem flushed2 (c : Dev nD) (t : Fin cfg2.N) :
    (dat2 V c).flushed 3 t
      = ((cfg2.win 3).blk t).view.read (Elt Ideal) (k2_pay1 (F := Ideal) (V c main_v78) (V c main_arg7) (V c main_v79)) := by
  show (cfg2.win 3).cut (grid2.coords t) ((dat2 V c).after 3 t) = _
  rw [after2_3]
  unfold out2_3
  rw [View.canon_unit_zero hz]
  simp only [View.ld_unit_zero (S := S512x128) hz, View.ld_unit_zero (S := S128x128) hz, View.ld_unit_zero (S := S1x128) hz]
  have hb0 : iblk2 V c 0 t = V c main_v78 := by
    funext z
    unfold iblk2
    rw [View.read_apply]
    show V c main_v78 _ = V c main_v78 _
    refine congrArg (V c main_v78) ?_
    funext a; apply Fin.ext
    match a with
    | ⟨0, _⟩ => show win2_0.index t (0 : Fin 2) * 512 + 1 * (z 0).val = (z 0).val; rw [(idx2 t).1]; omega
    | ⟨1, _⟩ => show win2_0.index t (1 : Fin 2) * 128 + 1 * (z 1).val = (z 1).val; rw [(idx2 t).2.1]; omega
  have hb1 : iblk2 V c 1 t = V c main_arg7 := by
    funext z
    unfold iblk2
    rw [View.read_apply]
    show V c main_arg7 _ = V c main_arg7 _
    refine congrArg (V c main_arg7) ?_
    funext a; apply Fin.ext
    match a with
    | ⟨0, _⟩ => show win2_1.index t (0 : Fin 2) * 128 + 1 * (z 0).val = (z 0).val; rw [(idx2 t).2.2.1]; omega
    | ⟨1, _⟩ => show win2_1.index t (1 : Fin 2) * 128 + 1 * (z 1).val = (z 1).val; rw [(idx2 t).2.2.2.1]; omega
  have hb2 : iblk2 V c 2 t = V c main_v79 := by
    funext z
    unfold iblk2
    rw [View.read_apply]
    show V c main_v79 _ = V c main_v79 _
    refine congrArg (V c main_v79) ?_
    funext a; apply Fin.ext
    match a with
    | ⟨0, _⟩ => show win2_2.index t (0 : Fin 2) * 1 + 1 * (z 0).val = (z 0).val; rw [(idx2 t).2.2.2.2.1]; omega
    | ⟨1, _⟩ => show win2_2.index t (1 : Fin 2) * 128 + 1 * (z 1).val = (z 1).val; rw [(idx2 t).2.2.2.2.2.1]; omega
  rw [hb0, hb1, hb2]
  funext j
  show k2_pay1 (F := Ideal) (V c main_v78) (V c main_arg7) (V c main_v79) j
    = k2_pay1 (F := Ideal) (V c main_v78) (V c main_arg7) (V c main_v79) (((cfg2.win 3).blk t).view.emb j)
  refine congrArg _ ?_
  funext a; apply Fin.ext
  match a with
  | ⟨0, _⟩ => show (j 0).val = win2_3.index t (0 : Fin 2) * 512 + 1 * (j 0).val; rw [(idx2 t).2.2.2.2.2.2.1]; omega
  | ⟨1, _⟩ => show (j 1).val = win2_3.index t (1 : Fin 2) * 128 + 1 * (j 1).val; rw [(idx2 t).2.2.2.2.2.2.2]; omega

theorem mem_blk2 (t : Fin cfg2.N) (i : S512x128.Idx) :
    i ∈ ((cfg2.win 3).blk t).view.set ↔ ∀ a : Fin 2, win2_3.index t a * S512x128.size a ≤ (i a).val ∧ (i a).val < win2_3.index t a * S512x128.size a + S512x128.size a := by
  show i ∈ ((View.whole main_v80).slice (win2_3.rect t)).set ↔ _
  rw [View.set_slice_whole, Rect.mem_set_unit]
  exact Iff.rfl

/-- The one block is the whole output. -/
theorem cover2 (i : S512x128.Idx) :
    ∃ t : Fin cfg2.N, (cfg2.win 3).flush t = true ∧ i ∈ ((cfg2.win 3).blk t).view.set := by
  have hi0 : (i 0).val < 512 := (i 0).isLt
  have hi1 : (i 1).val < 128 := (i 1).isLt
  refine ⟨t2_0, flush2_3 _, ?_⟩
  rw [mem_blk2]
  intro a
  match a with
  | ⟨0, _⟩ =>
    show win2_3.index t2_0 (0 : Fin 2) * 512 ≤ (i 0).val ∧ (i 0).val < win2_3.index t2_0 (0 : Fin 2) * 512 + 512
    rw [(idx2 t2_0).2.2.2.2.2.2.1]; omega
  | ⟨1, _⟩ =>
    show win2_3.index t2_0 (1 : Fin 2) * 128 ≤ (i 1).val ∧ (i 1).val < win2_3.index t2_0 (1 : Fin 2) * 128 + 128
    rw [(idx2 t2_0).2.2.2.2.2.2.2]; omega

/-- The region leaves the body's function of its input arrays in its output array. -/
theorem whole2 (c : Dev nD) :
    (dat2 V c).arrAt 3 cfg2.N = k2_pay1 (F := Ideal) (V c main_v78) (V c main_arg7) (V c main_v79) :=
  (dat2 V c).arrAt_eq_of_cover 3 _ (fun t _ => flushed2 V c t) cover2

/-! ## Region 3: one point, whole arrays -/

/-- The one point's index maps are all zero. -/
theorem idx3 : ∀ t : Fin cfg3.N, win3_0.index t (0 : Fin 2) = 0 ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0 :=
  (by decide +kernel : ∀ t : Fin grid3.N, _)

/-- What the point writes back is the body's function of the whole input arrays. -/
theorem flushed3 (c : Dev nD) (t : Fin cfg3.N) :
    (dat3 V c).flushed 3 t
      = ((cfg3.win 3).blk t).view.read (Elt Ideal) (k3_pay1 (F := Ideal) (V c main_v80) (V c main_arg9) (V c main_v81)) := by
  show (cfg3.win 3).cut (grid3.coords t) ((dat3 V c).after 3 t) = _
  rw [after3_3]
  unfold out3_3
  rw [View.canon_unit_zero hz]
  simp only [View.ld_unit_zero (S := S512x128) hz, View.ld_unit_zero (S := S128x64) hz, View.ld_unit_zero (S := S1x64) hz]
  have hb0 : iblk3 V c 0 t = V c main_v80 := by
    funext z
    unfold iblk3
    rw [View.read_apply]
    show V c main_v80 _ = V c main_v80 _
    refine congrArg (V c main_v80) ?_
    funext a; apply Fin.ext
    match a with
    | ⟨0, _⟩ => show win3_0.index t (0 : Fin 2) * 512 + 1 * (z 0).val = (z 0).val; rw [(idx3 t).1]; omega
    | ⟨1, _⟩ => show win3_0.index t (1 : Fin 2) * 128 + 1 * (z 1).val = (z 1).val; rw [(idx3 t).2.1]; omega
  have hb1 : iblk3 V c 1 t = V c main_arg9 := by
    funext z
    unfold iblk3
    rw [View.read_apply]
    show V c main_arg9 _ = V c main_arg9 _
    refine congrArg (V c main_arg9) ?_
    funext a; apply Fin.ext
    match a with
    | ⟨0, _⟩ => show win3_1.index t (0 : Fin 2) * 128 + 1 * (z 0).val = (z 0).val; rw [(idx3 t).2.2.1]; omega
    | ⟨1, _⟩ => show win3_1.index t (1 : Fin 2) * 64 + 1 * (z 1).val = (z 1).val; rw [(idx3 t).2.2.2.1]; omega
  have hb2 : iblk3 V c 2 t = V c main_v81 := by
    funext z
    unfold iblk3
    rw [View.read_apply]
    show V c main_v81 _ = V c main_v81 _
    refine congrArg (V c main_v81) ?_
    funext a; apply Fin.ext
    match a with
    | ⟨0, _⟩ => show win3_2.index t (0 : Fin 2) * 1 + 1 * (z 0).val = (z 0).val; rw [(idx3 t).2.2.2.2.1]; omega
    | ⟨1, _⟩ => show win3_2.index t (1 : Fin 2) * 64 + 1 * (z 1).val = (z 1).val; rw [(idx3 t).2.2.2.2.2.1]; omega
  rw [hb0, hb1, hb2]
  funext j
  show k3_pay1 (F := Ideal) (V c main_v80) (V c main_arg9) (V c main_v81) j
    = k3_pay1 (F := Ideal) (V c main_v80) (V c main_arg9) (V c main_v81) (((cfg3.win 3).blk t).view.emb j)
  refine congrArg _ ?_
  funext a; apply Fin.ext
  match a with
  | ⟨0, _⟩ => show (j 0).val = win3_3.index t (0 : Fin 2) * 512 + 1 * (j 0).val; rw [(idx3 t).2.2.2.2.2.2.1]; omega
  | ⟨1, _⟩ => show (j 1).val = win3_3.index t (1 : Fin 2) * 64 + 1 * (j 1).val; rw [(idx3 t).2.2.2.2.2.2.2]; omega

theorem mem_blk3 (t : Fin cfg3.N) (i : S512x64.Idx) :
    i ∈ ((cfg3.win 3).blk t).view.set ↔ ∀ a : Fin 2, win3_3.index t a * S512x64.size a ≤ (i a).val ∧ (i a).val < win3_3.index t a * S512x64.size a + S512x64.size a := by
  show i ∈ ((View.whole main_v82).slice (win3_3.rect t)).set ↔ _
  rw [View.set_slice_whole, Rect.mem_set_unit]
  exact Iff.rfl

/-- The one block is the whole output. -/
theorem cover3 (i : S512x64.Idx) :
    ∃ t : Fin cfg3.N, (cfg3.win 3).flush t = true ∧ i ∈ ((cfg3.win 3).blk t).view.set := by
  have hi0 : (i 0).val < 512 := (i 0).isLt
  have hi1 : (i 1).val < 64 := (i 1).isLt
  refine ⟨t3_0, flush3_3 _, ?_⟩
  rw [mem_blk3]
  intro a
  match a with
  | ⟨0, _⟩ =>
    show win3_3.index t3_0 (0 : Fin 2) * 512 ≤ (i 0).val ∧ (i 0).val < win3_3.index t3_0 (0 : Fin 2) * 512 + 512
    rw [(idx3 t3_0).2.2.2.2.2.2.1]; omega
  | ⟨1, _⟩ =>
    show win3_3.index t3_0 (1 : Fin 2) * 64 ≤ (i 1).val ∧ (i 1).val < win3_3.index t3_0 (1 : Fin 2) * 64 + 64
    rw [(idx3 t3_0).2.2.2.2.2.2.2]; omega

/-- The region leaves the body's function of its input arrays in its output array. -/
theorem whole3 (c : Dev nD) :
    (dat3 V c).arrAt 3 cfg3.N = k3_pay1 (F := Ideal) (V c main_v80) (V c main_arg9) (V c main_v81) :=
  (dat3 V c).arrAt_eq_of_cover 3 _ (fun t _ => flushed3 V c t) cover3

end Cert.KernelIdeal.Regions

end
-- ==== Proof.KernelValue.lean ====
/-
  The kernel program's result as the network function of its arguments.

  The contents of a core's buffers are followed from the launch through the host stretches and the four regions.
  The arguments are never written, so each is read as launched wherever it is used; the edge ends and the edge
  weights computed before the first region are not written afterwards; each region's output array is the dense
  product (for the head: the layer) of the arrays it finds; each stretch between regions is the shared function
  of what it reads.  Composed, the result buffer after the last region holds the network function of the launch
  contents of the arguments.
-/
import proofs.«156952_j62904091017570_1_alg».proof.Proof.Gen.KernelIdeal.Frame
import proofs.«156952_j62904091017570_1_alg».proof.Proof.KernelHost
import proofs.«156952_j62904091017570_1_alg».proof.Proof.KernelRegions

set_option maxRecDepth 16384

noncomputable section

namespace Cert.KernelIdeal.Value

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg) (c : Dev nD)

/-! ## At the first region's entry -/

theorem at3_arg0 : W3 m ρ c (Proc.devRef .tc main_arg0) = (m ((c : Thread nD τ).loc main_arg0)) := by
  show StableHlo.after hostOps0_2 (StableHlo.after hostOps0_1 (StableHlo.after hostOps0 (W0 m ρ c))) (Proc.devRef .tc main_arg0) = _
  after_results_simp <;> rfl
theorem at3_arg2 : W3 m ρ c (Proc.devRef .tc main_arg2) = (m ((c : Thread nD τ).loc main_arg2)) := by
  show StableHlo.after hostOps0_2 (StableHlo.after hostOps0_1 (StableHlo.after hostOps0 (W0 m ρ c))) (Proc.devRef .tc main_arg2) = _
  after_results_simp <;> rfl
theorem at3_arg3 : W3 m ρ c (Proc.devRef .tc main_arg3) = (m ((c : Thread nD τ).loc main_arg3)) := by
  show StableHlo.after hostOps0_2 (StableHlo.after hostOps0_1 (StableHlo.after hostOps0 (W0 m ρ c))) (Proc.devRef .tc main_arg3) = _
  after_results_simp <;> rfl
theorem at3_arg4 : W3 m ρ c (Proc.devRef .tc main_arg4) = (m ((c : Thread nD τ).loc main_arg4)) := by
  show StableHlo.after hostOps0_2 (StableHlo.after hostOps0_1 (StableHlo.after hostOps0 (W0 m ρ c))) (Proc.devRef .tc main_arg4) = _
  after_results_simp <;> rfl
theorem at3_arg5 : W3 m ρ c (Proc.devRef .tc main_arg5) = (m ((c : Thread nD τ).loc main_arg5)) := by
  show StableHlo.after hostOps0_2 (StableHlo.after hostOps0_1 (StableHlo.after hostOps0 (W0 m ρ c))) (Proc.devRef .tc main_arg5) = _
  after_results_simp <;> rfl
theorem at3_arg6 : W3 m ρ c (Proc.devRef .tc main_arg6) = (m ((c : Thread nD τ).loc main_arg6)) := by
  show StableHlo.after hostOps0_2 (StableHlo.after hostOps0_1 (StableHlo.after hostOps0 (W0 m ρ c))) (Proc.devRef .tc main_arg6) = _
  after_results_simp <;> rfl
theorem at3_arg7 : W3 m ρ c (Proc.devRef .tc main_arg7) = (m ((c : Thread nD τ).loc main_arg7)) := by
  show StableHlo.after hostOps0_2 (StableHlo.after hostOps0_1 (StableHlo.after hostOps0 (W0 m ρ c))) (Proc.devRef .tc main_arg7) = _
  after_results_simp <;> rfl
theorem at3_arg8 : W3 m ρ c (Proc.devRef .tc main_arg8) = (m ((c : Thread nD τ).loc main_arg8)) := by
  show StableHlo.after hostOps0_2 (StableHlo.after hostOps0_1 (StableHlo.after hostOps0 (W0 m ρ c))) (Proc.devRef .tc main_arg8) = _
  after_results_simp <;> rfl
theorem at3_arg9 : W3 m ρ c (Proc.devRef .tc main_arg9) = (m ((c : Thread nD τ).loc main_arg9)) := by
  show StableHlo.after hostOps0_2 (StableHlo.after hostOps0_1 (StableHlo.after hostOps0 (W0 m ρ c))) (Proc.devRef .tc main_arg9) = _
  after_results_simp <;> rfl
theorem at3_arg10 : W3 m ρ c (Proc.devRef .tc main_arg10) = (m ((c : Thread nD τ).loc main_arg10)) := by
  show StableHlo.after hostOps0_2 (StableHlo.after hostOps0_1 (StableHlo.after hostOps0 (W0 m ρ c))) (Proc.devRef .tc main_arg10) = _
  after_results_simp <;> rfl
theorem at3_v3 : W3 m ρ c (Proc.devRef .tc main_v3) = (Cert.Spec.src (F := Ideal) (m ((c : Thread nD τ).loc main_arg1))) := Host.pre_src (W0 m ρ c)
theorem at3_v6 : W3 m ρ c (Proc.devRef .tc main_v6) = (Cert.Spec.dst (F := Ideal) (m ((c : Thread nD τ).loc main_arg1))) := Host.pre_dst (W0 m ρ c)
theorem at3_v30 : W3 m ρ c (Proc.devRef .tc main_v30) = (Cert.Spec.norm (F := Ideal) (Cert.Spec.src (m ((c : Thread nD τ).loc main_arg1))) (Cert.Spec.dst (m ((c : Thread nD τ).loc main_arg1)))) := Host.pre_norm (W0 m ρ c)

/-! ## After the first region -/

theorem at4_v31 : W4 m ρ c (Proc.devRef .tc main_v31) = Cert.Spec.dense (F := Ideal) (m ((c : Thread nD τ).loc main_arg0)) (m ((c : Thread nD τ).loc main_arg3)) := by
  refine (W4_arr m ρ c 2).trans ((Regions.dense0 (V3 m ρ) c).trans ?_)
  show Cert.Spec.dense (F := Ideal) (W3 m ρ c (Proc.devRef .tc main_arg0)) (W3 m ρ c (Proc.devRef .tc main_arg3)) = _
  rw [at3_arg0, at3_arg3]

theorem at4_v3 : W4 m ρ c (Proc.devRef .tc main_v3) = (Cert.Spec.src (F := Ideal) (m ((c : Thread nD τ).loc main_arg1))) := (W4_of_ne m ρ c main_v3 (by decide)).trans (at3_v3 m ρ c)
theorem at4_v6 : W4 m ρ c (Proc.devRef .tc main_v6) = (Cert.Spec.dst (F := Ideal) (m ((c : Thread nD τ).loc main_arg1))) := (W4_of_ne m ρ c main_v6 (by decide)).trans (at3_v6 m ρ c)
theorem at4_v30 : W4 m ρ c (Proc.devRef .tc main_v30) = (Cert.Spec.norm (F := Ideal) (Cert.Spec.src (m ((c : Thread nD τ).loc main_arg1))) (Cert.Spec.dst (m ((c : Thread nD τ).loc main_arg1)))) := (W4_of_ne m ρ c main_v30 (by decide)).trans (at3_v30 m ρ c)
theorem at4_arg2 : W4 m ρ c (Proc.devRef .tc main_arg2) = (m ((c : Thread nD τ).loc main_arg2)) := (W4_of_ne m ρ c main_arg2 (by decide)).trans (at3_arg2 m ρ c)
theorem at4_arg4 : W4 m ρ c (Proc.devRef .tc main_arg4) = (m ((c : Thread nD τ).loc main_arg4)) := (W4_of_ne m ρ c main_arg4 (by decide)).trans (at3_arg4 m ρ c)
theorem at4_arg5 : W4 m ρ c (Proc.devRef .tc main_arg5) = (m ((c : Thread nD τ).loc main_arg5)) := (W4_of_ne m ρ c main_arg5 (by decide)).trans (at3_arg5 m ρ c)
theorem at4_arg6 : W4 m ρ c (Proc.devRef .tc main_arg6) = (m ((c : Thread nD τ).loc main_arg6)) := (W4_of_ne m ρ c main_arg6 (by decide)).trans (at3_arg6 m ρ c)
theorem at4_arg7 : W4 m ρ c (Proc.devRef .tc main_arg7) = (m ((c : Thread nD τ).loc main_arg7)) := (W4_of_ne m ρ c main_arg7 (by decide)).trans (at3_arg7 m ρ c)
theorem at4_arg8 : W4 m ρ c (Proc.devRef .tc main_arg8) = (m ((c : Thread nD τ).loc main_arg8)) := (W4_of_ne m ρ c main_arg8 (by decide)).trans (at3_arg8 m ρ c)
theorem at4_arg9 : W4 m ρ c (Proc.devRef .tc main_arg9) = (m ((c : Thread nD τ).loc main_arg9)) := (W4_of_ne m ρ c main_arg9 (by decide)).trans (at3_arg9 m ρ c)
theorem at4_arg10 : W4 m ρ c (Proc.devRef .tc main_arg10) = (m ((c : Thread nD τ).loc main_arg10)) := (W4_of_ne m ρ c main_arg10 (by decide)).trans (at3_arg10 m ρ c)

/-! ## At the second region's entry: the first layer finished -/

/-- The first layer's output. -/
abbrev layer1 : (⟨Cert.ReferenceIdeal.S100000x128, .f32⟩ : BufTy).Contents (Elt Ideal) :=
  Cert.Spec.conv (F := Ideal) (Cert.Spec.dense (m ((c : Thread nD τ).loc main_arg0)) (m ((c : Thread nD τ).loc main_arg3))) (Cert.Spec.src (F := Ideal) (m ((c : Thread nD τ).loc main_arg1))) (Cert.Spec.dst (F := Ideal) (m ((c : Thread nD τ).loc main_arg1))) (Cert.Spec.norm (F := Ideal) (Cert.Spec.src (m ((c : Thread nD τ).loc main_arg1))) (Cert.Spec.dst (m ((c : Thread nD τ).loc main_arg1)))) (m ((c : Thread nD τ).loc main_arg4))

theorem at6_v48 : W6 m ρ c (Proc.devRef .tc main_v48) = layer1 m c := by
  refine (Host.mid1_layer (W4 m ρ c)).trans ?_
  rw [at4_v31, at4_v3, at4_v6, at4_v30, at4_arg4]

theorem at6_v3 : W6 m ρ c (Proc.devRef .tc main_v3) = (Cert.Spec.src (F := Ideal) (m ((c : Thread nD τ).loc main_arg1))) := by
  refine Eq.trans ?_ (at4_v3 m ρ c)
  show StableHlo.after hostOps1_1 (StableHlo.after hostOps1 (W4 m ρ c)) (Proc.devRef .tc main_v3) = _
  after_results_simp <;> rfl
theorem at6_v6 : W6 m ρ c (Proc.devRef .tc main_v6) = (Cert.Spec.dst (F := Ideal) (m ((c : Thread nD τ).loc main_arg1))) := by
  refine Eq.trans ?_ (at4_v6 m ρ c)
  show StableHlo.after hostOps1_1 (StableHlo.after hostOps1 (W4 m ρ c)) (Proc.devRef .tc main_v6) = _
  after_results_simp <;> rfl
theorem at6_v30 : W6 m ρ c (Proc.devRef .tc main_v30) = (Cert.Spec.norm (F := Ideal) (Cert.Spec.src (m ((c : Thread nD τ).loc main_arg1))) (Cert.Spec.dst (m ((c : Thread nD τ).loc main_arg1)))) := by
  refine Eq.trans ?_ (at4_v30 m ρ c)
  show StableHlo.after hostOps1_1 (StableHlo.after hostOps1 (W4 m ρ c)) (Proc.devRef .tc main_v30) = _
  after_results_simp <;> rfl
theorem at6_arg2 : W6 m ρ c (Proc.devRef .tc main_arg2) = (m ((c : Thread nD τ).loc main_arg2)) := by
  refine Eq.trans ?_ (at4_arg2 m ρ c)
  show StableHlo.after hostOps1_1 (StableHlo.after hostOps1 (W4 m ρ c)) (Proc.devRef .tc main_arg2) = _
  after_results_simp <;> rfl
theorem at6_arg5 : W6 m ρ c (Proc.devRef .tc main_arg5) = (m ((c : Thread nD τ).loc main_arg5)) := by
  refine Eq.trans ?_ (at4_arg5 m ρ c)
  show StableHlo.after hostOps1_1 (StableHlo.after hostOps1 (W4 m ρ c)) (Proc.devRef .tc main_arg5) = _
  after_results_simp <;> rfl
theorem at6_arg6 : W6 m ρ c (Proc.devRef .tc main_arg6) = (m ((c : Thread nD τ).loc main_arg6)) := by
  refine Eq.trans ?_ (at4_arg6 m ρ c)
  show StableHlo.after hostOps1_1 (StableHlo.after hostOps1 (W4 m ρ c)) (Proc.devRef .tc main_arg6) = _
  after_results_simp <;> rfl
theorem at6_arg7 : W6 m ρ c (Proc.devRef .tc main_arg7) = (m ((c : Thread nD τ).loc main_arg7)) := by
  refine Eq.trans ?_ (at4_arg7 m ρ c)
  show StableHlo.after hostOps1_1 (StableHlo.after hostOps1 (W4 m ρ c)) (Proc.devRef .tc main_arg7) = _
  after_results_simp <;> rfl
theorem at6_arg8 : W6 m ρ c (Proc.devRef .tc main_arg8) = (m ((c : Thread nD τ).loc main_arg8)) := by
  refine Eq.trans ?_ (at4_arg8 m ρ c)
  show StableHlo.after hostOps1_1 (StableHlo.after hostOps1 (W4 m ρ c)) (Proc.devRef .tc main_arg8) = _
  after_results_simp <;> rfl
theorem at6_arg9 : W6 m ρ c (Proc.devRef .tc main_arg9) = (m ((c : Thread nD τ).loc main_arg9)) := by
  refine Eq.trans ?_ (at4_arg9 m ρ c)
  show StableHlo.after hostOps1_1 (StableHlo.after hostOps1 (W4 m ρ c)) (Proc.devRef .tc main_arg9) = _
  after_results_simp <;> rfl
theorem at6_arg10 : W6 m ρ c (Proc.devRef .tc main_arg10) = (m ((c : Thread nD τ).loc main_arg10)) := by
  refine Eq.trans ?_ (at4_arg10 m ρ c)
  show StableHlo.after hostOps1_1 (StableHlo.after hostOps1 (W4 m ρ c)) (Proc.devRef .tc main_arg10) = _
  after_results_simp <;> rfl

/-! ## After the second region -/

theorem at7_v49 : W7 m ρ c (Proc.devRef .tc main_v49) = Cert.Spec.dense (F := Ideal) (layer1 m c) (m ((c : Thread nD τ).loc main_arg5)) := by
  refine (W7_arr m ρ c 2).trans ((Regions.dense1 (V6 m ρ) c).trans ?_)
  show Cert.Spec.dense (F := Ideal) (W6 m ρ c (Proc.devRef .tc main_v48)) (W6 m ρ c (Proc.devRef .tc main_arg5)) = _
  rw [at6_v48, at6_arg5]

theorem at7_v3 : W7 m ρ c (Proc.devRef .tc main_v3) = (Cert.Spec.src (F := Ideal) (m ((c : Thread nD τ).loc main_arg1))) := (W7_of_ne m ρ c main_v3 (by decide)).trans (at6_v3 m ρ c)
theorem at7_v6 : W7 m ρ c (Proc.devRef .tc main_v6) = (Cert.Spec.dst (F := Ideal) (m ((c : Thread nD τ).loc main_arg1))) := (W7_of_ne m ρ c main_v6 (by decide)).trans (at6_v6 m ρ c)
theorem at7_v30 : W7 m ρ c (Proc.devRef .tc main_v30) = (Cert.Spec.norm (F := Ideal) (Cert.Spec.src (m ((c : Thread nD τ).loc main_arg1))) (Cert.Spec.dst (m ((c : Thread nD τ).loc main_arg1)))) := (W7_of_ne m ρ c main_v30 (by decide)).trans (at6_v30 m ρ c)
theorem at7_arg2 : W7 m ρ c (Proc.devRef .tc main_arg2) = (m ((c : Thread nD τ).loc main_arg2)) := (W7_of_ne m ρ c main_arg2 (by decide)).trans (at6_arg2 m ρ c)
theorem at7_arg6 : W7 m ρ c (Proc.devRef .tc main_arg6) = (m ((c : Thread nD τ).loc main_arg6)) := (W7_of_ne m ρ c main_arg6 (by decide)).trans (at6_arg6 m ρ c)
theorem at7_arg7 : W7 m ρ c (Proc.devRef .tc main_arg7) = (m ((c : Thread nD τ).loc main_arg7)) := (W7_of_ne m ρ c main_arg7 (by decide)).trans (at6_arg7 m ρ c)
theorem at7_arg8 : W7 m ρ c (Proc.devRef .tc main_arg8) = (m ((c : Thread nD τ).loc main_arg8)) := (W7_of_ne m ρ c main_arg8 (by decide)).trans (at6_arg8 m ρ c)
theorem at7_arg9 : W7 m ρ c (Proc.devRef .tc main_arg9) = (m ((c : Thread nD τ).loc main_arg9)) := (W7_of_ne m ρ c main_arg9 (by decide)).trans (at6_arg9 m ρ c)
theorem at7_arg10 : W7 m ρ c (Proc.devRef .tc main_arg10) = (m ((c : Thread nD τ).loc main_arg10)) := (W7_of_ne m ρ c main_arg10 (by decide)).trans (at6_arg10 m ρ c)

/-! ## At the third region's entry: the second layer, the mean per graph, the third bias as a row -/

/-- The mean per graph of the second layer's output. -/
abbrev pooled : (⟨Cert.ReferenceIdeal.S512x128, .f32⟩ : BufTy).Contents (Elt Ideal) :=
  Cert.Spec.pool (F := Ideal)
    (Cert.Spec.conv (Cert.Spec.dense (layer1 m c) (m ((c : Thread nD τ).loc main_arg5))) (Cert.Spec.src (F := Ideal) (m ((c : Thread nD τ).loc main_arg1))) (Cert.Spec.dst (F := Ideal) (m ((c : Thread nD τ).loc main_arg1))) (Cert.Spec.norm (F := Ideal) (Cert.Spec.src (m ((c : Thread nD τ).loc main_arg1))) (Cert.Spec.dst (m ((c : Thread nD τ).loc main_arg1)))) (m ((c : Thread nD τ).loc main_arg6)))
    (m ((c : Thread nD τ).loc main_arg2))

theorem at10_v78 : W10 m ρ c (Proc.devRef .tc main_v78) = pooled m c := by
  refine (Host.mid2_pool (W7 m ρ c)).trans ?_
  rw [at7_v49, at7_v3, at7_v6, at7_v30, at7_arg6, at7_arg2]

theorem at10_v79 : W10 m ρ c (Proc.devRef .tc main_v79) = shapeCast S1x128 (m ((c : Thread nD τ).loc main_arg8)) shapeCasts_S128_S1x128 := by
  refine (Host.mid2_bias (W7 m ρ c)).trans ?_
  rw [at7_arg8]

theorem at10_arg7 : W10 m ρ c (Proc.devRef .tc main_arg7) = (m ((c : Thread nD τ).loc main_arg7)) := by
  refine Eq.trans ?_ (at7_arg7 m ρ c)
  show StableHlo.after hostOps2_2 (StableHlo.after hostOps2_1 (StableHlo.after hostOps2 (W7 m ρ c))) (Proc.devRef .tc main_arg7) = _
  after_results_simp <;> rfl
theorem at10_arg9 : W10 m ρ c (Proc.devRef .tc main_arg9) = (m ((c : Thread nD τ).loc main_arg9)) := by
  refine Eq.trans ?_ (at7_arg9 m ρ c)
  show StableHlo.after hostOps2_2 (StableHlo.after hostOps2_1 (StableHlo.after hostOps2 (W7 m ρ c))) (Proc.devRef .tc main_arg9) = _
  after_results_simp <;> rfl
theorem at10_arg10 : W10 m ρ c (Proc.devRef .tc main_arg10) = (m ((c : Thread nD τ).loc main_arg10)) := by
  refine Eq.trans ?_ (at7_arg10 m ρ c)
  show StableHlo.after hostOps2_2 (StableHlo.after hostOps2_1 (StableHlo.after hostOps2 (W7 m ρ c))) (Proc.devRef .tc main_arg10) = _
  after_results_simp <;> rfl

/-! ## After the third region -/

theorem at11_v80 : W11 m ρ c (Proc.devRef .tc main_v80) = Cert.Spec.hidden (F := Ideal) (pooled m c) (m ((c : Thread nD τ).loc main_arg7)) (m ((c : Thread nD τ).loc main_arg8)) := by
  refine (W11_arr m ρ c 3).trans ((Regions.whole2 (V10 m ρ) c).trans ?_)
  show k2_pay1 (F := Ideal) (W10 m ρ c (Proc.devRef .tc main_v78)) (W10 m ρ c (Proc.devRef .tc main_arg7)) (W10 m ρ c (Proc.devRef .tc main_v79)) = _
  rw [at10_v78, at10_arg7, at10_v79]
  exact Body.pay2_eq _ _ _

theorem at11_arg9 : W11 m ρ c (Proc.devRef .tc main_arg9) = (m ((c : Thread nD τ).loc main_arg9)) := (W11_of_ne m ρ c main_arg9 (by decide)).trans (at10_arg9 m ρ c)
theorem at11_arg10 : W11 m ρ c (Proc.devRef .tc main_arg10) = (m ((c : Thread nD τ).loc main_arg10)) := (W11_of_ne m ρ c main_arg10 (by decide)).trans (at10_arg10 m ρ c)

/-! ## At the fourth region's entry -/

theorem at12_v80 : W12 m ρ c (Proc.devRef .tc main_v80) = Cert.Spec.hidden (F := Ideal) (pooled m c) (m ((c : Thread nD τ).loc main_arg7)) (m ((c : Thread nD τ).loc main_arg8)) := by
  refine Eq.trans ?_ (at11_v80 m ρ c)
  show StableHlo.after hostOps3 (W11 m ρ c) (Proc.devRef .tc main_v80) = _
  after_results_simp <;> rfl

theorem at12_v81 : W12 m ρ c (Proc.devRef .tc main_v81) = shapeCast S1x64 (m ((c : Thread nD τ).loc main_arg10)) shapeCasts_S64_S1x64 := by
  refine (Host.mid3_bias (W11 m ρ c)).trans ?_
  rw [at11_arg10]

theorem at12_arg9 : W12 m ρ c (Proc.devRef .tc main_arg9) = (m ((c : Thread nD τ).loc main_arg9)) := by
  refine Eq.trans ?_ (at11_arg9 m ρ c)
  show StableHlo.after hostOps3 (W11 m ρ c) (Proc.devRef .tc main_arg9) = _
  after_results_simp <;> rfl

/-! ## After the last region: the result -/

/-- The result buffer after the last region holds the network function of the arguments as launched. -/
theorem result : W13 m ρ c (Proc.devRef .tc main_v82)
    = Cert.Spec.net (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  refine (W13_arr m ρ c 3).trans ((Regions.whole3 (V12 m ρ) c).trans ?_)
  show k3_pay1 (F := Ideal) (W12 m ρ c (Proc.devRef .tc main_v80)) (W12 m ρ c (Proc.devRef .tc main_arg9)) (W12 m ρ c (Proc.devRef .tc main_v81)) = _
  rw [at12_v80, at12_arg9, at12_v81]
  exact Body.pay3_eq _ _ _

end Cert.KernelIdeal.Value

end
-- ==== Proof.RefRun.lean ====
/-
  The reference program's run, read back as the network function of its arguments.

  The reference is a straight line of host operations.  Every weakly fair execution terminates with each buffer at
  the fold of the operations over the launch memory; the result buffer's fold is the network function of the
  argument arrays (the edge ends and the edge weights are computed once per layer by the same operations of the
  edge list, so the two copies are one term), and no operation writes an argument.
-/
import proofs.«156952_j62904091017570_1_alg».proof.Proof.Spec
import proofs.«156952_j62904091017570_1_alg».proof.Proof.Gen.ReferenceIdeal
import Idealize.ShloMosaic.Lib.StableHlo.Run

noncomputable section

namespace Cert.ReferenceIdeal.Line

open Cert.ReferenceIdeal Cert.ReferenceIdeal.Gen Idealize.ShloMosaic Idealize.ShloMosaic.TcCoe Idealize.SL.Sem Idealize.ShloMosaic.StableHlo

variable {F : FTy → Type} [FloatOps F]

/-- The program's operations in order; a called function's operations stand in its call's place. -/
abbrev ops : List (HloOp τ sig (Elt F)) :=
  [ nullary main_v0 (iotaInDim S100000 32 0),
    unary main_arg1 main_v1 ((extractStridedSlice S1x1600000 ![0, 0] · slices_S2x1600000_S1x1600000_0_0) : (⟨S2x1600000, .i32⟩ : BufTy).Contents (Elt F) → (⟨S1x1600000, .i32⟩ : BufTy).Contents (Elt F)),
    reshape main_v1 main_v2 rfl shapeCasts_S1x1600000_S1600000,
    binary main_v2 main_v0 main_v3 (Cert.Spec.withLoops : (⟨S1600000, .i32⟩ : BufTy).Contents (Elt F) → (⟨S100000, .i32⟩ : BufTy).Contents (Elt F) → (⟨S1700000, .i32⟩ : BufTy).Contents (Elt F)),
    unary main_arg1 main_v4 ((extractStridedSlice S1x1600000 ![1, 0] · slices_S2x1600000_S1x1600000_1_0) : (⟨S2x1600000, .i32⟩ : BufTy).Contents (Elt F) → (⟨S1x1600000, .i32⟩ : BufTy).Contents (Elt F)),
    reshape main_v4 main_v5 rfl shapeCasts_S1x1600000_S1600000,
    binary main_v5 main_v0 main_v6 (Cert.Spec.withLoops : (⟨S1600000, .i32⟩ : BufTy).Contents (Elt F) → (⟨S100000, .i32⟩ : BufTy).Contents (Elt F) → (⟨S1700000, .i32⟩ : BufTy).Contents (Elt F)),
    nullary main_cst (constant S_ .f32 0x3F800000#32),
    unary main_cst main_v7 (broadcastInDim S1700000 ![] bcast_S_S1700000 : (⟨S_, .f32⟩ : BufTy).Contents (Elt F) → (⟨S1700000, .f32⟩ : BufTy).Contents (Elt F)),
    nullary main_cst_0 (constant S_ .f32 0x00000000#32),
    unary main_cst_0 main_v8 (broadcastInDim S100000 ![] bcast_S_S100000 : (⟨S_, .f32⟩ : BufTy).Contents (Elt F) → (⟨S100000, .f32⟩ : BufTy).Contents (Elt F)),
    unary main_v6 main_v9 (broadcastInDim S1700000x1 ![0] bcast_S1700000_S1700000x1_0 : (⟨S1700000, .i32⟩ : BufTy).Contents (Elt F) → (⟨S1700000x1, .i32⟩ : BufTy).Contents (Elt F)),
    ternary main_v8 main_v9 main_v7 main_v10 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    nullary main_cst_1 (constant S_ .f32 0x00000000#32),
    unary main_cst_1 main_v11 (broadcastInDim S100000 ![] bcast_S_S100000 : (⟨S_, .f32⟩ : BufTy).Contents (Elt F) → (⟨S100000, .f32⟩ : BufTy).Contents (Elt F)),
    binary main_v10 main_v11 main_v12 (cmpf .ogt : (⟨S100000, .f32⟩ : BufTy).Contents (Elt F) → (⟨S100000, .f32⟩ : BufTy).Contents (Elt F) → (⟨S100000, .i1⟩ : BufTy).Contents (Elt F)),
    unary main_v10 main_v13 (Host.rsqrt : (⟨S100000, .f32⟩ : BufTy).Contents (Elt F) → (⟨S100000, .f32⟩ : BufTy).Contents (Elt F)),
    nullary main_cst_2 (constant S_ .f32 0x00000000#32),
    unary main_cst_2 main_v14 (broadcastInDim S100000 ![] bcast_S_S100000 : (⟨S_, .f32⟩ : BufTy).Contents (Elt F) → (⟨S100000, .f32⟩ : BufTy).Contents (Elt F)),
    TRef.ternary (TRef.of (T := ⟨S100000, .i1⟩) main_v12) (TRef.of (T := ⟨S100000, .f32⟩) main_v13) (TRef.of (T := ⟨S100000, .f32⟩) main_v14) (TRef.of (T := ⟨S100000, .f32⟩) main_v15) select,
    nullary main_c (constantI S_ 32 0#32),
    unary main_c main_v16 (broadcastInDim S1700000 ![] bcast_S_S1700000 : (⟨S_, .i32⟩ : BufTy).Contents (Elt F) → (⟨S1700000, .i32⟩ : BufTy).Contents (Elt F)),
    binary main_v3 main_v16 main_v17 (cmpi .slt : (⟨S1700000, .i32⟩ : BufTy).Contents (Elt F) → (⟨S1700000, .i32⟩ : BufTy).Contents (Elt F) → (⟨S1700000, .i1⟩ : BufTy).Contents (Elt F)),
    nullary main_c_3 (constantI S_ 32 100000#32),
    unary main_c_3 main_v18 (broadcastInDim S1700000 ![] bcast_S_S1700000 : (⟨S_, .i32⟩ : BufTy).Contents (Elt F) → (⟨S1700000, .i32⟩ : BufTy).Contents (Elt F)),
    binary main_v3 main_v18 main_v19 (addi : (⟨S1700000, .i32⟩ : BufTy).Contents (Elt F) → (⟨S1700000, .i32⟩ : BufTy).Contents (Elt F) → (⟨S1700000, .i32⟩ : BufTy).Contents (Elt F)),
    ternary main_v17 main_v19 main_v3 main_v20 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v20 main_v21 (broadcastInDim S1700000x1 ![0] bcast_S1700000_S1700000x1_0 : (⟨S1700000, .i32⟩ : BufTy).Contents (Elt F) → (⟨S1700000x1, .i32⟩ : BufTy).Contents (Elt F)),
    binary main_v15 main_v21 main_v22 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    nullary main_c_4 (constantI S_ 32 0#32),
    unary main_c_4 main_v23 (broadcastInDim S1700000 ![] bcast_S_S1700000 : (⟨S_, .i32⟩ : BufTy).Contents (Elt F) → (⟨S1700000, .i32⟩ : BufTy).Contents (Elt F)),
    binary main_v6 main_v23 main_v24 (cmpi .slt : (⟨S1700000, .i32⟩ : BufTy).Contents (Elt F) → (⟨S1700000, .i32⟩ : BufTy).Contents (Elt F) → (⟨S1700000, .i1⟩ : BufTy).Contents (Elt F)),
    nullary main_c_5 (constantI S_ 32 100000#32),
    unary main_c_5 main_v25 (broadcastInDim S1700000 ![] bcast_S_S1700000 : (⟨S_, .i32⟩ : BufTy).Contents (Elt F) → (⟨S1700000, .i32⟩ : BufTy).Contents (Elt F)),
    binary main_v6 main_v25 main_v26 (addi : (⟨S1700000, .i32⟩ : BufTy).Contents (Elt F) → (⟨S1700000, .i32⟩ : BufTy).Contents (Elt F) → (⟨S1700000, .i32⟩ : BufTy).Contents (Elt F)),
    ternary main_v24 main_v26 main_v6 main_v27 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v27 main_v28 (broadcastInDim S1700000x1 ![0] bcast_S1700000_S1700000x1_0 : (⟨S1700000, .i32⟩ : BufTy).Contents (Elt F) → (⟨S1700000x1, .i32⟩ : BufTy).Contents (Elt F)),
    binary main_v15 main_v28 main_v29 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v22 main_v29 main_v30 (mulf : (⟨S1700000, .f32⟩ : BufTy).Contents (Elt F) → (⟨S1700000, .f32⟩ : BufTy).Contents (Elt F) → (⟨S1700000, .f32⟩ : BufTy).Contents (Elt F)),
    binary main_arg0 main_arg3 main_v31 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    nullary main_c_6 (constantI S_ 32 0#32),
    unary main_c_6 main_v32 (broadcastInDim S1700000 ![] bcast_S_S1700000 : (⟨S_, .i32⟩ : BufTy).Contents (Elt F) → (⟨S1700000, .i32⟩ : BufTy).Contents (Elt F)),
    binary main_v3 main_v32 main_v33 (cmpi .slt : (⟨S1700000, .i32⟩ : BufTy).Contents (Elt F) → (⟨S1700000, .i32⟩ : BufTy).Contents (Elt F) → (⟨S1700000, .i1⟩ : BufTy).Contents (Elt F)),
    nullary main_c_7 (constantI S_ 32 100000#32),
    unary main_c_7 main_v34 (broadcastInDim S1700000 ![] bcast_S_S1700000 : (⟨S_, .i32⟩ : BufTy).Contents (Elt F) → (⟨S1700000, .i32⟩ : BufTy).Contents (Elt F)),
    binary main_v3 main_v34 main_v35 (addi : (⟨S1700000, .i32⟩ : BufTy).Contents (Elt F) → (⟨S1700000, .i32⟩ : BufTy).Contents (Elt F) → (⟨S1700000, .i32⟩ : BufTy).Contents (Elt F)),
    ternary main_v33 main_v35 main_v3 main_v36 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v36 main_v37 (broadcastInDim S1700000x1 ![0] bcast_S1700000_S1700000x1_0 : (⟨S1700000, .i32⟩ : BufTy).Contents (Elt F) → (⟨S1700000x1, .i32⟩ : BufTy).Contents (Elt F)),
    binary main_v31 main_v37 main_v38 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)),
    unary main_v30 main_v39 (broadcastInDim S1700000x1 ![0] bcast_S1700000_S1700000x1_0 : (⟨S1700000, .f32⟩ : BufTy).Contents (Elt F) → (⟨S1700000x1, .f32⟩ : BufTy).Contents (Elt F)),
    unary main_v39 main_v40 (broadcastInDim S1700000x128 ![0, 1] bcast_S1700000x1_S1700000x128_0_1 : (⟨S1700000x1, .f32⟩ : BufTy).Contents (Elt F) → (⟨S1700000x128, .f32⟩ : BufTy).Contents (Elt F)),
    binary main_v38 main_v40 main_v41 (mulf : (⟨S1700000x128, .f32⟩ : BufTy).Contents (Elt F) → (⟨S1700000x128, .f32⟩ : BufTy).Contents (Elt F) → (⟨S1700000x128, .f32⟩ : BufTy).Contents (Elt F)),
    nullary main_cst_8 (constant S_ .f32 0x00000000#32),
    unary main_cst_8 main_v42 (broadcastInDim S100000x128 ![] bcast_S_S100000x128 : (⟨S_, .f32⟩ : BufTy).Contents (Elt F) → (⟨S100000x128, .f32⟩ : BufTy).Contents (Elt F)),
    unary main_v6 main_v43 (broadcastInDim S1700000x1 ![0] bcast_S1700000_S1700000x1_0 : (⟨S1700000, .i32⟩ : BufTy).Contents (Elt F) → (⟨S1700000x1, .i32⟩ : BufTy).Contents (Elt F)),
    ternary main_v42 main_v43 main_v41 main_v44 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)),
    unary main_arg4 main_v45 (broadcastInDim S1x128 ![1] bcast_S128_S1x128_1 : (⟨S128, .f32⟩ : BufTy).Contents (Elt F) → (⟨S1x128, .f32⟩ : BufTy).Contents (Elt F)),
    unary main_v45 main_v46 (broadcastInDim S100000x128 ![0, 1] bcast_S1x128_S100000x128_0_1 : (⟨S1x128, .f32⟩ : BufTy).Contents (Elt F) → (⟨S100000x128, .f32⟩ : BufTy).Contents (Elt F)),
    binary main_v44 main_v46 main_v47 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x128, .f32⟩) main_call1_v0) (broadcastInDim S100000x128 ![] bcast_S_S100000x128),
    TRef.binary (TRef.of (T := ⟨S100000x128, .f32⟩) main_v47) (TRef.of (T := ⟨S100000x128, .f32⟩) main_call1_v0) (TRef.of (T := ⟨S100000x128, .f32⟩) main_v48) maximumf,
    nullary main_v49 (iotaInDim S100000 32 0),
    unary main_arg1 main_v50 ((extractStridedSlice S1x1600000 ![0, 0] · slices_S2x1600000_S1x1600000_0_0) : (⟨S2x1600000, .i32⟩ : BufTy).Contents (Elt F) → (⟨S1x1600000, .i32⟩ : BufTy).Contents (Elt F)),
    reshape main_v50 main_v51 rfl shapeCasts_S1x1600000_S1600000,
    binary main_v51 main_v49 main_v52 (Cert.Spec.withLoops : (⟨S1600000, .i32⟩ : BufTy).Contents (Elt F) → (⟨S100000, .i32⟩ : BufTy).Contents (Elt F) → (⟨S1700000, .i32⟩ : BufTy).Contents (Elt F)),
    unary main_arg1 main_v53 ((extractStridedSlice S1x1600000 ![1, 0] · slices_S2x1600000_S1x1600000_1_0) : (⟨S2x1600000, .i32⟩ : BufTy).Contents (Elt F) → (⟨S1x1600000, .i32⟩ : BufTy).Contents (Elt F)),
    reshape main_v53 main_v54 rfl shapeCasts_S1x1600000_S1600000,
    binary main_v54 main_v49 main_v55 (Cert.Spec.withLoops : (⟨S1600000, .i32⟩ : BufTy).Contents (Elt F) → (⟨S100000, .i32⟩ : BufTy).Contents (Elt F) → (⟨S1700000, .i32⟩ : BufTy).Contents (Elt F)),
    nullary main_cst_9 (constant S_ .f32 0x3F800000#32),
    unary main_cst_9 main_v56 (broadcastInDim S1700000 ![] bcast_S_S1700000 : (⟨S_, .f32⟩ : BufTy).Contents (Elt F) → (⟨S1700000, .f32⟩ : BufTy).Contents (Elt F)),
    nullary main_cst_10 (constant S_ .f32 0x00000000#32),
    unary main_cst_10 main_v57 (broadcastInDim S100000 ![] bcast_S_S100000 : (⟨S_, .f32⟩ : BufTy).Contents (Elt F) → (⟨S100000, .f32⟩ : BufTy).Contents (Elt F)),
    unary main_v55 main_v58 (broadcastInDim S1700000x1 ![0] bcast_S1700000_S1700000x1_0 : (⟨S1700000, .i32⟩ : BufTy).Contents (Elt F) → (⟨S1700000x1, .i32⟩ : BufTy).Contents (Elt F)),
    ternary main_v57 main_v58 main_v56 main_v59 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    nullary main_cst_11 (constant S_ .f32 0x00000000#32),
    unary main_cst_11 main_v60 (broadcastInDim S100000 ![] bcast_S_S100000 : (⟨S_, .f32⟩ : BufTy).Contents (Elt F) → (⟨S100000, .f32⟩ : BufTy).Contents (Elt F)),
    binary main_v59 main_v60 main_v61 (cmpf .ogt : (⟨S100000, .f32⟩ : BufTy).Contents (Elt F) → (⟨S100000, .f32⟩ : BufTy).Contents (Elt F) → (⟨S100000, .i1⟩ : BufTy).Contents (Elt F)),
    unary main_v59 main_v62 (Host.rsqrt : (⟨S100000, .f32⟩ : BufTy).Contents (Elt F) → (⟨S100000, .f32⟩ : BufTy).Contents (Elt F)),
    nullary main_cst_12 (constant S_ .f32 0x00000000#32),
    unary main_cst_12 main_v63 (broadcastInDim S100000 ![] bcast_S_S100000 : (⟨S_, .f32⟩ : BufTy).Contents (Elt F) → (⟨S100000, .f32⟩ : BufTy).Contents (Elt F)),
    TRef.ternary (TRef.of (T := ⟨S100000, .i1⟩) main_v61) (TRef.of (T := ⟨S100000, .f32⟩) main_v62) (TRef.of (T := ⟨S100000, .f32⟩) main_v63) (TRef.of (T := ⟨S100000, .f32⟩) main_v64) select,
    nullary main_c_13 (constantI S_ 32 0#32),
    unary main_c_13 main_v65 (broadcastInDim S1700000 ![] bcast_S_S1700000 : (⟨S_, .i32⟩ : BufTy).Contents (Elt F) → (⟨S1700000, .i32⟩ : BufTy).Contents (Elt F)),
    binary main_v52 main_v65 main_v66 (cmpi .slt : (⟨S1700000, .i32⟩ : BufTy).Contents (Elt F) → (⟨S1700000, .i32⟩ : BufTy).Contents (Elt F) → (⟨S1700000, .i1⟩ : BufTy).Contents (Elt F)),
    nullary main_c_14 (constantI S_ 32 100000#32),
    unary main_c_14 main_v67 (broadcastInDim S1700000 ![] bcast_S_S1700000 : (⟨S_, .i32⟩ : BufTy).Contents (Elt F) → (⟨S1700000, .i32⟩ : BufTy).Contents (Elt F)),
    binary main_v52 main_v67 main_v68 (addi : (⟨S1700000, .i32⟩ : BufTy).Contents (Elt F) → (⟨S1700000, .i32⟩ : BufTy).Contents (Elt F) → (⟨S1700000, .i32⟩ : BufTy).Contents (Elt F)),
    ternary main_v66 main_v68 main_v52 main_v69 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v69 main_v70 (broadcastInDim S1700000x1 ![0] bcast_S1700000_S1700000x1_0 : (⟨S1700000, .i32⟩ : BufTy).Contents (Elt F) → (⟨S1700000x1, .i32⟩ : BufTy).Contents (Elt F)),
    binary main_v64 main_v70 main_v71 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    nullary main_c_15 (constantI S_ 32 0#32),
    unary main_c_15 main_v72 (broadcastInDim S1700000 ![] bcast_S_S1700000 : (⟨S_, .i32⟩ : BufTy).Contents (Elt F) → (⟨S1700000, .i32⟩ : BufTy).Contents (Elt F)),
    binary main_v55 main_v72 main_v73 (cmpi .slt : (⟨S1700000, .i32⟩ : BufTy).Contents (Elt F) → (⟨S1700000, .i32⟩ : BufTy).Contents (Elt F) → (⟨S1700000, .i1⟩ : BufTy).Contents (Elt F)),
    nullary main_c_16 (constantI S_ 32 100000#32),
    unary main_c_16 main_v74 (broadcastInDim S1700000 ![] bcast_S_S1700000 : (⟨S_, .i32⟩ : BufTy).Contents (Elt F) → (⟨S1700000, .i32⟩ : BufTy).Contents (Elt F)),
    binary main_v55 main_v74 main_v75 (addi : (⟨S1700000, .i32⟩ : BufTy).Contents (Elt F) → (⟨S1700000, .i32⟩ : BufTy).Contents (Elt F) → (⟨S1700000, .i32⟩ : BufTy).Contents (Elt F)),
    ternary main_v73 main_v75 main_v55 main_v76 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v76 main_v77 (broadcastInDim S1700000x1 ![0] bcast_S1700000_S1700000x1_0 : (⟨S1700000, .i32⟩ : BufTy).Contents (Elt F) → (⟨S1700000x1, .i32⟩ : BufTy).Contents (Elt F)),
    binary main_v64 main_v77 main_v78 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v71 main_v78 main_v79 (mulf : (⟨S1700000, .f32⟩ : BufTy).Contents (Elt F) → (⟨S1700000, .f32⟩ : BufTy).Contents (Elt F) → (⟨S1700000, .f32⟩ : BufTy).Contents (Elt F)),
    binary main_v48 main_arg5 main_v80 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    nullary main_c_17 (constantI S_ 32 0#32),
    unary main_c_17 main_v81 (broadcastInDim S1700000 ![] bcast_S_S1700000 : (⟨S_, .i32⟩ : BufTy).Contents (Elt F) → (⟨S1700000, .i32⟩ : BufTy).Contents (Elt F)),
    binary main_v52 main_v81 main_v82 (cmpi .slt : (⟨S1700000, .i32⟩ : BufTy).Contents (Elt F) → (⟨S1700000, .i32⟩ : BufTy).Contents (Elt F) → (⟨S1700000, .i1⟩ : BufTy).Contents (Elt F)),
    nullary main_c_18 (constantI S_ 32 100000#32),
    unary main_c_18 main_v83 (broadcastInDim S1700000 ![] bcast_S_S1700000 : (⟨S_, .i32⟩ : BufTy).Contents (Elt F) → (⟨S1700000, .i32⟩ : BufTy).Contents (Elt F)),
    binary main_v52 main_v83 main_v84 (addi : (⟨S1700000, .i32⟩ : BufTy).Contents (Elt F) → (⟨S1700000, .i32⟩ : BufTy).Contents (Elt F) → (⟨S1700000, .i32⟩ : BufTy).Contents (Elt F)),
    ternary main_v82 main_v84 main_v52 main_v85 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v85 main_v86 (broadcastInDim S1700000x1 ![0] bcast_S1700000_S1700000x1_0 : (⟨S1700000, .i32⟩ : BufTy).Contents (Elt F) → (⟨S1700000x1, .i32⟩ : BufTy).Contents (Elt F)),
    binary main_v80 main_v86 main_v87 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)),
    unary main_v79 main_v88 (broadcastInDim S1700000x1 ![0] bcast_S1700000_S1700000x1_0 : (⟨S1700000, .f32⟩ : BufTy).Contents (Elt F) → (⟨S1700000x1, .f32⟩ : BufTy).Contents (Elt F)),
    unary main_v88 main_v89 (broadcastInDim S1700000x128 ![0, 1] bcast_S1700000x1_S1700000x128_0_1 : (⟨S1700000x1, .f32⟩ : BufTy).Contents (Elt F) → (⟨S1700000x128, .f32⟩ : BufTy).Contents (Elt F)),
    binary main_v87 main_v89 main_v90 (mulf : (⟨S1700000x128, .f32⟩ : BufTy).Contents (Elt F) → (⟨S1700000x128, .f32⟩ : BufTy).Contents (Elt F) → (⟨S1700000x128, .f32⟩ : BufTy).Contents (Elt F)),
    nullary main_cst_19 (constant S_ .f32 0x00000000#32),
    unary main_cst_19 main_v91 (broadcastInDim S100000x128 ![] bcast_S_S100000x128 : (⟨S_, .f32⟩ : BufTy).Contents (Elt F) → (⟨S100000x128, .f32⟩ : BufTy).Contents (Elt F)),
    unary main_v55 main_v92 (broadcastInDim S1700000x1 ![0] bcast_S1700000_S1700000x1_0 : (⟨S1700000, .i32⟩ : BufTy).Contents (Elt F) → (⟨S1700000x1, .i32⟩ : BufTy).Contents (Elt F)),
    ternary main_v91 main_v92 main_v90 main_v93 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)),
    unary main_arg6 main_v94 (broadcastInDim S1x128 ![1] bcast_S128_S1x128_1 : (⟨S128, .f32⟩ : BufTy).Contents (Elt F) → (⟨S1x128, .f32⟩ : BufTy).Contents (Elt F)),
    unary main_v94 main_v95 (broadcastInDim S100000x128 ![0, 1] bcast_S1x128_S100000x128_0_1 : (⟨S1x128, .f32⟩ : BufTy).Contents (Elt F) → (⟨S100000x128, .f32⟩ : BufTy).Contents (Elt F)),
    binary main_v93 main_v95 main_v96 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S100000x128, .f32⟩) main_call3_v0) (broadcastInDim S100000x128 ![] bcast_S_S100000x128),
    TRef.binary (TRef.of (T := ⟨S100000x128, .f32⟩) main_v96) (TRef.of (T := ⟨S100000x128, .f32⟩) main_call3_v0) (TRef.of (T := ⟨S100000x128, .f32⟩) main_v97) maximumf,
    nullary main_cst_20 (constant S_ .f32 0x00000000#32),
    unary main_cst_20 main_v98 (broadcastInDim S512x128 ![] bcast_S_S512x128 : (⟨S_, .f32⟩ : BufTy).Contents (Elt F) → (⟨S512x128, .f32⟩ : BufTy).Contents (Elt F)),
    unary main_arg2 main_v99 (broadcastInDim S100000x1 ![0] bcast_S100000_S100000x1_0 : (⟨S100000, .i32⟩ : BufTy).Contents (Elt F) → (⟨S100000x1, .i32⟩ : BufTy).Contents (Elt F)),
    ternary main_v98 main_v99 main_v97 main_v100 ((fun x i u => Host.scatterAdd scatter_S512x128_S100000x1_S100000x128_1_0_0_1 x i u) : (⟨S512x128, .f32⟩ : BufTy).Contents (Elt F) → (⟨S100000x1, .i32⟩ : BufTy).Contents (Elt F) → (⟨S100000x128, .f32⟩ : BufTy).Contents (Elt F) → (⟨S512x128, .f32⟩ : BufTy).Contents (Elt F)),
    nullary main_cst_21 (constant S_ .f32 0x3F800000#32),
    unary main_cst_21 main_v101 (broadcastInDim S100000 ![] bcast_S_S100000 : (⟨S_, .f32⟩ : BufTy).Contents (Elt F) → (⟨S100000, .f32⟩ : BufTy).Contents (Elt F)),
    nullary main_cst_22 (constant S_ .f32 0x00000000#32),
    unary main_cst_22 main_v102 (broadcastInDim S512 ![] bcast_S_S512 : (⟨S_, .f32⟩ : BufTy).Contents (Elt F) → (⟨S512, .f32⟩ : BufTy).Contents (Elt F)),
    unary main_arg2 main_v103 (broadcastInDim S100000x1 ![0] bcast_S100000_S100000x1_0 : (⟨S100000, .i32⟩ : BufTy).Contents (Elt F) → (⟨S100000x1, .i32⟩ : BufTy).Contents (Elt F)),
    ternary main_v102 main_v103 main_v101 main_v104 ((fun x i u => Host.scatterAdd scatter_S512_S100000x1_S100000_n_0_0_1 x i u) : (⟨S512, .f32⟩ : BufTy).Contents (Elt F) → (⟨S100000x1, .i32⟩ : BufTy).Contents (Elt F) → (⟨S100000, .f32⟩ : BufTy).Contents (Elt F) → (⟨S512, .f32⟩ : BufTy).Contents (Elt F)),
    nullary main_cst_23 (constant S_ .f32 0x3F800000#32),
    unary main_cst_23 main_v105 (broadcastInDim S512 ![] bcast_S_S512 : (⟨S_, .f32⟩ : BufTy).Contents (Elt F) → (⟨S512, .f32⟩ : BufTy).Contents (Elt F)),
    binary main_v104 main_v105 main_v106 (maximumf : (⟨S512, .f32⟩ : BufTy).Contents (Elt F) → (⟨S512, .f32⟩ : BufTy).Contents (Elt F) → (⟨S512, .f32⟩ : BufTy).Contents (Elt F)),
    unary main_v106 main_v107 (broadcastInDim S512x1 ![0] bcast_S512_S512x1_0 : (⟨S512, .f32⟩ : BufTy).Contents (Elt F) → (⟨S512x1, .f32⟩ : BufTy).Contents (Elt F)),
    unary main_v107 main_v108 (broadcastInDim S512x128 ![0, 1] bcast_S512x1_S512x128_0_1 : (⟨S512x1, .f32⟩ : BufTy).Contents (Elt F) → (⟨S512x128, .f32⟩ : BufTy).Contents (Elt F)),
    binary main_v100 main_v108 main_v109 (Host.divf : (⟨S512x128, .f32⟩ : BufTy).Contents (Elt F) → (⟨S512x128, .f32⟩ : BufTy).Contents (Elt F) → (⟨S512x128, .f32⟩ : BufTy).Contents (Elt F)),
    binary main_v109 main_arg7 main_v110 ((fun l r => Host.dotGeneral dot_S512x128_S128x128_S512x128_1_0_0_1_n_n none l r) : (⟨S512x128, .f32⟩ : BufTy).Contents (Elt F) → (⟨S128x128, .f32⟩ : BufTy).Contents (Elt F) → (⟨S512x128, .f32⟩ : BufTy).Contents (Elt F)),
    unary main_arg8 main_v111 (broadcastInDim S1x128 ![1] bcast_S128_S1x128_1 : (⟨S128, .f32⟩ : BufTy).Contents (Elt F) → (⟨S1x128, .f32⟩ : BufTy).Contents (Elt F)),
    unary main_v111 main_v112 (broadcastInDim S512x128 ![0, 1] bcast_S1x128_S512x128_0_1 : (⟨S1x128, .f32⟩ : BufTy).Contents (Elt F) → (⟨S512x128, .f32⟩ : BufTy).Contents (Elt F)),
    binary main_v110 main_v112 main_v113 (addf : (⟨S512x128, .f32⟩ : BufTy).Contents (Elt F) → (⟨S512x128, .f32⟩ : BufTy).Contents (Elt F) → (⟨S512x128, .f32⟩ : BufTy).Contents (Elt F)),
    TRef.nullary (TRef.of (T := ⟨S_, .f32⟩) main_call4_cst) (constant S_ .f32 0x00000000#32),
    TRef.unary (TRef.of (T := ⟨S_, .f32⟩) main_call4_cst) (TRef.of (T := ⟨S512x128, .f32⟩) main_call4_v0) (broadcastInDim S512x128 ![] bcast_S_S512x128),
    TRef.binary (TRef.of (T := ⟨S512x128, .f32⟩) main_v113) (TRef.of (T := ⟨S512x128, .f32⟩) main_call4_v0) (TRef.of (T := ⟨S512x128, .f32⟩) main_v114) maximumf,
    binary main_v114 main_arg9 main_v115 ((fun l r => Host.dotGeneral dot_S512x128_S128x64_S512x64_1_0_0_1_n_n none l r) : (⟨S512x128, .f32⟩ : BufTy).Contents (Elt F) → (⟨S128x64, .f32⟩ : BufTy).Contents (Elt F) → (⟨S512x64, .f32⟩ : BufTy).Contents (Elt F)),
    unary main_arg10 main_v116 (broadcastInDim S1x64 ![1] bcast_S64_S1x64_1 : (⟨S64, .f32⟩ : BufTy).Contents (Elt F) → (⟨S1x64, .f32⟩ : BufTy).Contents (Elt F)),
    unary main_v116 main_v117 (broadcastInDim S512x64 ![0, 1] bcast_S1x64_S512x64_0_1 : (⟨S1x64, .f32⟩ : BufTy).Contents (Elt F) → (⟨S512x64, .f32⟩ : BufTy).Contents (Elt F)),
    binary main_v115 main_v117 main_v118 (addf : (⟨S512x64, .f32⟩ : BufTy).Contents (Elt F) → (⟨S512x64, .f32⟩ : BufTy).Contents (Elt F) → (⟨S512x64, .f32⟩ : BufTy).Contents (Elt F)) ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨nullary_bufs_sub .., unary_bufs_sub .., reshape_bufs_sub .., binary_bufs_sub .., unary_bufs_sub .., reshape_bufs_sub .., binary_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., nullary_bufs_sub .., unary_bufs_sub .., reshape_bufs_sub .., binary_bufs_sub .., unary_bufs_sub .., reshape_bufs_sub .., binary_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub ..⟩

set_option maxRecDepth 8192 in
set_option maxHeartbeats 60400000 in
/-- Every weakly fair execution of the reference terminates without a fault, with the result at the network
    function of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v118) = Cert.Spec.net (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun _ h c => ⟨(h c main_v118).trans (by after_results_simp <;> rfl),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl),
      (h c main_arg6).trans (by after_results_simp <;> rfl),
      (h c main_arg7).trans (by after_results_simp <;> rfl),
      (h c main_arg8).trans (by after_results_simp <;> rfl),
      (h c main_arg9).trans (by after_results_simp <;> rfl),
      (h c main_arg10).trans (by after_results_simp <;> rfl)⟩)
    (run_seq scopedRefs_eq scopedSems_eq defs main (fun _ => ops) main_eq (fun _ => ops_sub) m ρ)

end Cert.ReferenceIdeal.Line

end
-- ==== Proof.lean ====
/-
  Two graph-convolution layers, a mean per graph and a two-layer head: the kernel program against its reference.

  Both programs compute one function of the arguments.  The edge ends, the degrees and the edge weights, the
  gather of the transformed rows at the edge sources, their weighted sum into the edge destinations, the bias
  and the clamp, and the mean per graph are the same host operations in both programs, applied to equal operands;
  they are carried as named functions and never opened.  The programs differ only in the four dense products:
  the reference takes them on the host, the kernel program on the matrix unit, over blocks of 10000 node rows for
  the two layers and over whole arrays for the head, after rounding the operands to bf16.  On exact values the
  rounding is the identity and both products are, entry (p, q), the sum over k of the left operand at (p, k)
  times the right at (k, q); the blocks of the two layer products tile the node rows.  No law of the extended
  reals beyond that identification is used, so the precondition is never opened.
-/
import proofs.«156952_j62904091017570_1_alg».proof.Defs
import proofs.«156952_j62904091017570_1_alg».proof.Proof.Gen.Kernel
import proofs.«156952_j62904091017570_1_alg».proof.Proof.Gen.Kernel.Frame
import proofs.«156952_j62904091017570_1_alg».proof.Proof.Gen.KernelIdeal
import proofs.«156952_j62904091017570_1_alg».proof.Proof.Gen.KernelIdeal.Frame
import proofs.«156952_j62904091017570_1_alg».proof.Proof.Gen.ReferenceIdeal
import proofs.«156952_j62904091017570_1_alg».proof.Proof.Gen.Pre_finite_inputs
import proofs.«156952_j62904091017570_1_alg».proof.Proof.KernelRun
import proofs.«156952_j62904091017570_1_alg».proof.Proof.KernelValue
import proofs.«156952_j62904091017570_1_alg».proof.Proof.RefRun
import Idealize.ShloMosaic.Adequacy
import Idealize.ShloMosaic.Init

noncomputable section

namespace Cert.Proof

open Idealize.ShloMosaic Idealize.SL.Sem

/-- The kernel program as printed runs and leaves its arguments unchanged. -/
theorem frame_kernel : Cert.frame_Kernel := fun m ρ _ => Cert.Kernel.Gen.frame m ρ

/-- The idealized kernel program runs and leaves its arguments unchanged. -/
theorem frame_kernelIdeal : Cert.frame_KernelIdeal := fun m ρ _ => Cert.KernelIdeal.Gen.frame m ρ

/-- The reference runs and leaves its arguments unchanged: its run with the result dropped. -/
theorem frame_reference : Cert.frame_ReferenceIdeal := fun m ρ _ =>
  (θ_run Cert.ReferenceIdeal.defs _ _).mono (fun _ h c => (h c).2) (Cert.ReferenceIdeal.Line.run (F := Ideal) m ρ)

/-- The idealization rewrote no operation. -/
theorem preserves : Cert.preserves_Kernel_KernelIdeal := trivial

/-- From memories agreeing on the arguments both programs end with the network function of those arguments. -/
theorem algebraic : Cert.algebraic_KernelIdeal_ReferenceIdeal := by
  intro m ρ m' ρ' _ hagree
  refine ⟨fun c => Cert.Spec.net (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)), ?_, ?_⟩
  · exact (θ_run Cert.KernelIdeal.defs _ _).mono
      (fun r h c => ⟨(h c).1.trans (Cert.KernelIdeal.Value.result m ρ c), (h c).2⟩)
      (Cert.KernelIdeal.Gen.run_named m ρ)
  · refine (θ_run Cert.ReferenceIdeal.defs _ _).mono (fun _ h c => ⟨(h c).1.trans ?_, (h c).2⟩)
      (Cert.ReferenceIdeal.Line.run (F := Ideal) m' ρ')
    obtain ⟨e0, e1, e2, e3, e4, e5, e6, e7, e8, e9, e10⟩ := hagree c
    rw [e0, e1, e2, e3, e4, e5, e6, e7, e8, e9, e10]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
